-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 73
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  Every weakly fair execution of the program terminates without a fault; in the final state the result array holds what
  the last kernel's write-backs leave in it — the last boundary's contents `W6` at the result's buffer — and the
  arguments are as launched.  The run is the launch of the program's six segments (three host stretches, three kernels);
  the final state is read against the last thread state, which holds every unscoped buffer at `W6`: the result's buffer
  is one of them, exactly as the arguments' buffers are.
-/
import proofs.«167675_j67783173865548_2_alg».proof.Proof.KernelIdealFrameP
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result array at the last boundary's contents, the arguments unchanged. -/
theorem run_value : θ_run defs (onTc (τ := τ) (main (F := Ideal))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.KernelHost.lean ====
/-
  The host side of the kernel's program, read over the extended reals.

  Between its three kernels the program runs host operations.  The first stretch cuts the edge list into its row of
  sources `s` and its row of targets `d`, counts the edges at each target (a scatter-add of ones into zeros), takes the
  reciprocal of that count raised to at least one, lays it out as a column, and forms the first neighbour sums: the rows
  of the node features gathered at the sources (negative positions wrapped once) and scatter-added into zeros at the
  targets.  Each later stretch forms the neighbour sums of the previous kernel's result the same way.  Every stretch also
  lays a bias vector out as a row.  The gather and the scatter are never opened: the neighbour sum is one function
  `nbr s d` of node features, the same after every kernel.

  This module states those functions, the reference each operation of a stretch writes, and from them the contents of
  every buffer a kernel reads when it starts, as a term of the program's arguments.
-/
import proofs.«167675_j67783173865548_2_alg».proof.Proof.KernelIdealFrameP
import proofs.«167675_j67783173865548_2_alg».proof.Proof.LibStretchRead
import Idealize.ShloMosaic.PureOps.Ideal

noncomputable section

namespace Cert.KernelIdeal.Hand

open Idealize.ShloMosaic Idealize.ShloMosaic.TcCoe Idealize.SL.Sem Idealize.ShloMosaic.StableHlo
open Cert.KernelIdeal Cert.KernelIdeal.Gen Cert.KernelIdeal.GenP

/-! ## The host functions -/

/-- The row of source positions of the edge list. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The row of target positions of the edge list. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The neighbour sums of node features `h`: the rows of `h` at the sources (a negative position wrapped once by the
    number of nodes), added up at the targets, from zeros. -/
def nbr (s d : (⟨S800000, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The number of edges at each target: ones added up at the targets, from zeros. -/
def cntOf (d : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The reciprocal of the count raised to at least one, as a column. -/
def invOf (d : (⟨S800000, .i32⟩ : BufTy).Contents (Elt Ideal)) : (⟨S50000x1, .f32⟩ : BufTy).Contents (Elt Ideal) :=
  shapeCast _ (Host.divf (broadcastInDim S50000 ![] bcast_S_S50000 (constant (F := Ideal) S_ .f32 0x3F800000#32))
    (maximumf (cntOf d) (broadcastInDim S50000 ![] bcast_S_S50000 (constant (F := Ideal) S_ .f32 0x3F800000#32))))
    shapeCasts_S50000_S50000x1

/-- A bias vector laid out as a row. -/
def rowOf (b : (⟨S128, .f32⟩ : BufTy).Contents (Elt Ideal)) : (⟨S1x128, .f32⟩ : BufTy).Contents (Elt Ideal) :=
  shapeCast _ b shapeCasts_S128_S1x128

/-! ## The one reference each host operation writes -/

/-- The first stretch's results, in order. -/
def wr0 : List (Ref sig .tc) :=
  [main_v0, main_v1, main_v2, main_v3, main_cst, main_v4, main_cst_0, main_v5, main_v6, main_v7, main_cst_1, main_v8, main_v9,
   main_cst_2, main_v10, main_v11, main_v12, main_c, main_v13, main_v14, main_c_3, main_v15, main_v16, main_v17, main_v18,
   main_v19, main_cst_4, main_v20, main_v21, main_v22, main_v23]
/-- The second stretch's results, in order. -/
def wr1 : List (Ref sig .tc) :=
  [main_c_5, main_v25, main_v26, main_c_6, main_v27, main_v28, main_v29, main_v30, main_v31, main_cst_7, main_v32, main_v33,
   main_v34, main_v35]
/-- The third stretch's results, in order. -/
def wr2 : List (Ref sig .tc) :=
  [main_c_8, main_v37, main_v38, main_c_9, main_v39, main_v40, main_v41, main_v42, main_v43, main_cst_10, main_v44, main_v45,
   main_v46, main_v47]

theorem writes0 : WritesOnly (hostOps0 (F := Ideal)) wr0 := by
  unfold WritesOnly wr0
  repeat' (first | exact List.Forall₂.nil | refine List.Forall₂.cons ?_ ?_)
  all_goals simp only [nullary_writes, unary_writes, binary_writes, ternary_writes, reshape_writes, Finset.Subset.refl]
theorem writes1 : WritesOnly (hostOps1 (F := Ideal)) wr1 := by
  unfold WritesOnly wr1
  repeat' (first | exact List.Forall₂.nil | refine List.Forall₂.cons ?_ ?_)
  all_goals simp only [nullary_writes, unary_writes, binary_writes, ternary_writes, reshape_writes, Finset.Subset.refl]
theorem writes2 : WritesOnly (hostOps2 (F := Ideal)) wr2 := by
  unfold WritesOnly wr2
  repeat' (first | exact List.Forall₂.nil | refine List.Forall₂.cons ?_ ?_)
  all_goals simp only [nullary_writes, unary_writes, binary_writes, ternary_writes, reshape_writes, Finset.Subset.refl]

variable (m : (ℓ : Loc nD τ sig) → Buf (Elt Ideal) ℓ) (ρ : Dev nD → PrngReg)

/-! ## When the first kernel starts -/

theorem at1_v1 (c : Dev nD) : W1 m ρ c (Proc.devRef .tc main_v1) = srcOf (m ((c : Thread nD τ).loc main_arg1)) := by
  show StableHlo.after hostOps0 (W0 m ρ c) (Proc.devRef .tc main_v1) = _
  after_results
  rfl
theorem at1_v3 (c : Dev nD) : W1 m ρ c (Proc.devRef .tc main_v3) = dstOf (m ((c : Thread nD τ).loc main_arg1)) := by
  show StableHlo.after hostOps0 (W0 m ρ c) (Proc.devRef .tc main_v3) = _
  after_results
  rfl
theorem at1_v12 (c : Dev nD) : W1 m ρ c (Proc.devRef .tc main_v12) = invOf (dstOf (m ((c : Thread nD τ).loc main_arg1))) := by
  show StableHlo.after hostOps0 (W0 m ρ c) (Proc.devRef .tc main_v12) = _
  after_results
  rfl
set_option maxHeartbeats 4000000 in
theorem at1_v22 (c : Dev nD) : W1 m ρ c (Proc.devRef .tc main_v22)
    = nbr (srcOf (m ((c : Thread nD τ).loc main_arg1))) (dstOf (m ((c : Thread nD τ).loc main_arg1))) (m ((c : Thread nD τ).loc main_arg0)) := by
  show StableHlo.after hostOps0 (W0 m ρ c) (Proc.devRef .tc main_v22) = _
  after_results_simp
  rfl
theorem at1_v23 (c : Dev nD) : W1 m ρ c (Proc.devRef .tc main_v23) = rowOf (m ((c : Thread nD τ).loc main_arg3)) := by
  show StableHlo.after hostOps0 (W0 m ρ c) (Proc.devRef .tc main_v23) = _
  after_results
  rfl
/-- The first stretch writes none of the program's arguments. -/
theorem at1_arg (c : Dev nD) (r : Ref sig .tc) (hr : r ∉ wr0) : W1 m ρ c (Proc.devRef .tc r) = m ((c : Thread nD τ).loc r) :=
  after_of_not_mem_writesOnly writes0 (W0 m ρ c) r hr

/-! ## When the second kernel starts: the second stretch, from the contents the first kernel leaves -/

/-- The second neighbour sums are `nbr` of the edge rows and of the first kernel's result, as the first kernel leaves them. -/
theorem at3_v34 (c : Dev nD) : W3 m ρ c (Proc.devRef .tc main_v34)
    = nbr (W2 m ρ c (Proc.devRef .tc main_v1)) (W2 m ρ c (Proc.devRef .tc main_v3)) (W2 m ρ c (Proc.devRef .tc main_v24)) := by
  show StableHlo.after hostOps1 (W2 m ρ c) (Proc.devRef .tc main_v34) = _
  after_results
  rfl
theorem at3_v35 (c : Dev nD) : W3 m ρ c (Proc.devRef .tc main_v35) = rowOf (W2 m ρ c (Proc.devRef .tc main_arg6)) := by
  show StableHlo.after hostOps1 (W2 m ρ c) (Proc.devRef .tc main_v35) = _
  after_results
  rfl
/-- The second stretch leaves every reference it does not write as the first kernel left it. -/
theorem at3_keep (c : Dev nD) (r : Ref sig .tc) (hr : r ∉ wr1) :
    W3 m ρ c (Proc.devRef .tc r) = W2 m ρ c (Proc.devRef .tc r) :=
  after_of_not_mem_writesOnly writes1 (W2 m ρ c) r hr

/-! ## When the third kernel starts: the third stretch, from the contents the second kernel leaves -/

theorem at5_v46 (c : Dev nD) : W5 m ρ c (Proc.devRef .tc main_v46)
    = nbr (W4 m ρ c (Proc.devRef .tc main_v1)) (W4 m ρ c (Proc.devRef .tc main_v3)) (W4 m ρ c (Proc.devRef .tc main_v36)) := by
  show StableHlo.after hostOps2 (W4 m ρ c) (Proc.devRef .tc main_v46) = _
  after_results
  rfl
theorem at5_v47 (c : Dev nD) : W5 m ρ c (Proc.devRef .tc main_v47) = rowOf (W4 m ρ c (Proc.devRef .tc main_arg9)) := by
  show StableHlo.after hostOps2 (W4 m ρ c) (Proc.devRef .tc main_v47) = _
  after_results
  rfl
/-- The third stretch leaves every reference it does not write as the second kernel left it. -/
theorem at5_keep (c : Dev nD) (r : Ref sig .tc) (hr : r ∉ wr2) :
    W5 m ρ c (Proc.devRef .tc r) = W4 m ρ c (Proc.devRef .tc r) :=
  after_of_not_mem_writesOnly writes2 (W4 m ρ c) r hr

end Cert.KernelIdeal.Hand

end
-- ==== Proof.LibSageLayer.lean ====
/-
  One mean-aggregation layer of a graph network as a function of whole arrays, over the extended reals.

  For a node `p` with neighbour sum `agg (p, ·)`, neighbour count `cnt (p, 0)` and own features `h (p, ·)` the layer's
  entry at `(p, q)` is

      (∑ k, (agg (p, k) / max (cnt (p, 0)) 1) * wl (k, q)  +  ∑ k, h (p, k) * wr (k, q))  +  b (0, q)

  with the count kept as an `[M, 1]` column and the bias as a `[1, N]` row.  The quotient is the extended reals' total
  division, the constant `1` is kept as the float word it is printed as (the same word on every side, never evaluated), and
  the two sums and the bias are added in this order.  `layerRelu` is the same followed by a maximum with the word `0`.
  Row `p` of the result depends on row `p` of `agg`, `h` and `cnt` only, so a block of rows of the result is the layer
  of the same block of rows of the three: that is what makes a row-tiled computation the whole-array one.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word of `1.0`, read at the ideal instance. -/
abbrev oneWord : EReal := Ideal.ofBits .f32 0x3F800000#32
/-- The float word of `0.0`, read at the ideal instance. -/
abbrev zeroWord : EReal := Ideal.ofBits .f32 0x00000000#32

/-- The layer without its activation, entry by entry. -/
def layer {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i =>
  (∑ k : Fin K, Ideal.div (agg (ix2 (i 0) k)) (max (cnt (ix2 (i 0) (0 : Fin 1))) oneWord) * wl (ix2 k (i 1))
    + ∑ k : Fin K, h (ix2 (i 0) k) * wr (ix2 k (i 1))) + b (ix2 (0 : Fin 1) (i 1))

/-- The layer followed by its activation `max · 0`, entry by entry. -/
def layerRelu {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i => max (layer agg h cnt wl wr b i) zeroWord

theorem layer_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layer agg h cnt wl wr b (ix2 p q)
      = (∑ k : Fin K, Ideal.div (agg (ix2 p k)) (max (cnt (ix2 p (0 : Fin 1))) oneWord) * wl (ix2 k q)
          + ∑ k : Fin K, h (ix2 p k) * wr (ix2 k q)) + b (ix2 (0 : Fin 1) q) := rfl

theorem layerRelu_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layerRelu agg h cnt wl wr b (ix2 p q) = max (layer agg h cnt wl wr b (ix2 p q)) zeroWord := rfl

/-- Row `p'` of the layer of one family of arrays is row `p` of the layer of another family when those two rows of the
    neighbour sums and of the features agree, the count agrees there, and the weights and the bias are the same. -/
theorem layer_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layer agg' h' cnt' wl' wr' b' (ix2 p' q) = layer agg h cnt wl wr b (ix2 p q) := by
  subst hwl hwr hb
  rw [layer_apply, layer_apply, hcnt]
  refine congrArg₂ (· + ·) (congrArg₂ (· + ·) (Finset.sum_congr rfl fun k _ => ?_) (Finset.sum_congr rfl fun k _ => ?_)) rfl
  · rw [hagg k]
  · rw [hh k]

/-- The same with the activation. -/
theorem layerRelu_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layerRelu agg' h' cnt' wl' wr' b' (ix2 p' q) = layerRelu agg h cnt wl wr b (ix2 p q) :=
  congrArg (max · zeroWord) (layer_row_congr agg h cnt agg' h' cnt' wl wr b wl' wr' b' p p' q hagg hh hcnt hwl hwr hb)

end Cert.Sage

end
-- ==== Proof.LibSageMul.lean ====
/-
  A mean-aggregation layer whose mean is taken by a product with a reciprocal column, over the extended reals.

  For a node `p` with neighbour sum `agg (p, ·)`, own features `h (p, ·)` and a weight `inv (p, 0)` the entry at `(p, q)` is

      (∑ k, (agg (p, k) * inv (p, 0)) * wl (k, q)  +  ∑ k, h (p, k) * wr (k, q))  +  b (0, q).

  When the weight is the reciprocal of the neighbour count raised to at least one, `inv (p, 0) = 1 / max (cnt (p, 0)) 1`,
  this is the layer that divides by that count: the divisor is at least one, so it is not zero, and off zero a product
  with `1 / c` is the quotient by `c` on every extended real, the infinities included.  Nothing here needs a finite entry.
  Row `p` of the result depends on row `p` of `agg`, `h` and `inv` only.
-/
import Idealize.ShloMosaic.PureOps.Ideal
import Idealize.ShloMosaic.PureOps.Ideal.Laws
import Idealize.ShloMosaic.Lib.ValueIdx
import Idealize.ShloMosaic.Lib.IdealHost
import proofs.«167675_j67783173865548_2_alg».proof.Proof.LibSageLayer

noncomputable section

namespace Cert.Sage

open Idealize.ShloMosaic Idealize.ShloMosaic.ValueIdx

/-- The layer with a reciprocal column, without its activation, entry by entry. -/
def layerMul {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i =>
  (∑ k : Fin K, (agg (ix2 (i 0) k) * inv (ix2 (i 0) (0 : Fin 1))) * wl (ix2 k (i 1))
    + ∑ k : Fin K, h (ix2 (i 0) k) * wr (ix2 k (i 1))) + b (ix2 (0 : Fin 1) (i 1))

/-- The same followed by the activation `max · 0`. -/
def layerMulRelu {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i => max (layerMul agg h inv wl wr b i) zeroWord

theorem layerMul_apply {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) (p : Fin M) (q : Fin N) :
    layerMul agg h inv wl wr b (ix2 p q)
      = (∑ k : Fin K, (agg (ix2 p k) * inv (ix2 p (0 : Fin 1))) * wl (ix2 k q)
          + ∑ k : Fin K, h (ix2 p k) * wr (ix2 k q)) + b (ix2 (0 : Fin 1) q) := rfl

theorem layerMulRelu_apply {M K N : ℕ} (agg h : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) (p : Fin M) (q : Fin N) :
    layerMulRelu agg h inv wl wr b (ix2 p q) = max (layerMul agg h inv wl wr b (ix2 p q)) zeroWord := rfl

/-- Row `p'` of the layer of one family of arrays is row `p` of the layer of another when those rows of the neighbour
    sums and of the features agree, the weight agrees there, and the matrices and the bias are the same. -/
theorem layerMul_row_congr {M M' K N : ℕ} (agg h : (⟨2, ![M, K]⟩ : Shape).Idx → EReal) (inv : (⟨2, ![M, 1]⟩ : Shape).Idx → EReal)
    (agg' h' : (⟨2, ![M', K]⟩ : Shape).Idx → EReal) (inv' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hinv : inv' (ix2 p' (0 : Fin 1)) = inv (ix2 p (0 : Fin 1))) (hwl : wl' = wl) (hwr : wr' = wr) (hb : b' = b) :
    layerMul agg' h' inv' wl' wr' b' (ix2 p' q) = layerMul agg h inv wl wr b (ix2 p q) := by
  subst hwl hwr hb
  rw [layerMul_apply, layerMul_apply, hinv]
  refine congrArg₂ (· + ·) (congrArg₂ (· + ·) (Finset.sum_congr rfl fun k _ => ?_) (Finset.sum_congr rfl fun k _ => ?_)) rfl
  · rw [hagg k]
  · rw [hh k]

/-- The same with the activation. -/
theorem layerMulRelu_row_congr {M M' K N : ℕ} (agg h : (⟨2, ![M, K]⟩ : Shape).Idx → EReal) (inv : (⟨2, ![M, 1]⟩ : Shape).Idx → EReal)
    (agg' h' : (⟨2, ![M', K]⟩ : Shape).Idx → EReal) (inv' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hinv : inv' (ix2 p' (0 : Fin 1)) = inv (ix2 p (0 : Fin 1))) (hwl : wl' = wl) (hwr : wr' = wr) (hb : b' = b) :
    layerMulRelu agg' h' inv' wl' wr' b' (ix2 p' q) = layerMulRelu agg h inv wl wr b (ix2 p q) :=
  congrArg (max · zeroWord) (layerMul_row_congr agg h inv agg' h' inv' wl wr b wl' wr' b' p p' q hagg hh hinv hwl hwr hb)

/-- A count raised to at least one is not zero. -/
theorem max_oneWord_ne_zero (c : EReal) : max c oneWord ≠ 0 := by
  have h1 : (0 : EReal) < oneWord := by
    show (0 : EReal) < Ideal.ofBits .f32 0x3F800000#32
    rw [Ideal.ofBits_one_f32]; exact zero_lt_one
  exact ne_of_gt (lt_of_lt_of_le h1 (le_max_right c oneWord))

/-- With the reciprocal of the raised count as the weight, the product form is the quotient form. -/
theorem layerMul_eq_layer {M K N : ℕ} (agg h : (⟨2, ![M, K]⟩ : Shape).Idx → EReal) (inv cnt : (⟨2, ![M, 1]⟩ : Shape).Idx → EReal)
    (wl wr : (⟨2, ![K, N]⟩ : Shape).Idx → EReal) (b : (⟨2, ![1, N]⟩ : Shape).Idx → EReal)
    (hinv : ∀ p : Fin M, inv (ix2 p (0 : Fin 1)) = Ideal.div oneWord (max (cnt (ix2 p (0 : Fin 1))) oneWord)) :
    layerMul agg h inv wl wr b = layer agg h cnt wl wr b := by
  funext j
  obtain ⟨p, q, rfl⟩ : ∃ (p : Fin M) (q : Fin N), j = ix2 p q := ⟨j 0, j 1, eq_ix2 j⟩
  rw [layerMul_apply, layer_apply, hinv p]
  refine congrArg₂ (· + ·) (congrArg₂ (· + ·) (Finset.sum_congr rfl fun k _ => ?_) rfl) rfl
  have e : agg (ix2 p k) * Ideal.div oneWord (max (cnt (ix2 p (0 : Fin 1))) oneWord)
      = Ideal.div (agg (ix2 p k)) (max (cnt (ix2 p (0 : Fin 1))) oneWord) := by
    have h1 : (oneWord : EReal) = 1 := Ideal.ofBits_one_f32
    have hne := max_oneWord_ne_zero (cnt (ix2 p (0 : Fin 1)))
    generalize max (cnt (ix2 p (0 : Fin 1))) oneWord = c at hne ⊢
    rw [h1]
    exact Ideal.mul_one_div hne
  rw [e]

/-- The same with the activation. -/
theorem layerMulRelu_eq_layerRelu {M K N : ℕ} (agg h : (⟨2, ![M, K]⟩ : Shape).Idx → EReal) (inv cnt : (⟨2, ![M, 1]⟩ : Shape).Idx → EReal)
    (wl wr : (⟨2, ![K, N]⟩ : Shape).Idx → EReal) (b : (⟨2, ![1, N]⟩ : Shape).Idx → EReal)
    (hinv : ∀ p : Fin M, inv (ix2 p (0 : Fin 1)) = Ideal.div oneWord (max (cnt (ix2 p (0 : Fin 1))) oneWord)) :
    layerMulRelu agg h inv wl wr b = layerRelu agg h cnt wl wr b := by
  funext j
  show max (layerMul agg h inv wl wr b j) zeroWord = max (layer agg h cnt wl wr b j) zeroWord
  rw [layerMul_eq_layer agg h inv cnt wl wr b hinv]

end Cert.Sage

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibSageTile.lean ====
/-
  A row tile's dense stage as its body computes it, read entry by entry over the extended reals.

  The body multiplies the tile's neighbour sums by its weight column spread along the features, takes the product with
  the left matrix, adds the tile's own features times the right matrix, then the bias row spread over the tile's rows;
  the operands of the two products are first narrowed to a shorter float format, which changes nothing here.  At an
  entry `(p, q)` this is the two sums over the contracted coordinate plus the bias at `q`: the layer with a reciprocal
  column of the tile's arrays.  The first stage then takes the maximum with zero and narrows the result; in the second
  the tile's own features arrive already narrowed.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167675_j67783173865548_2_alg».proof.Proof.LibSageMul
import proofs.«167675_j67783173865548_2_alg».proof.Proof.LibPlainDot
import proofs.«167675_j67783173865548_2_alg».proof.Proof.LibColumns

noncomputable section

namespace Cert.Sage

open Idealize.ShloMosaic Idealize.ShloMosaic.ValueIdx

variable {M K N : ℕ}

/-- The stage before its activation, the tile's own features already in the shorter format. -/
theorem tileMul_eq (d : DotDims ⟨2, ![M, K]⟩ ⟨2, ![K, N]⟩ ⟨2, ![M, N]⟩) (hd : d = DotDims.plain M K N)
    (inv : FVec Ideal ⟨2, ![M, 1]⟩ .f32) (agg : FVec Ideal ⟨2, ![M, K]⟩ .f32) (xb : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none xb (truncf .bf16 wr t) (constant ⟨2, ![M, N]⟩ .f32 0x00000000#32)))
      (broadcastTo ⟨2, ![M, N]⟩ (shapeCast ⟨2, ![1, N]⟩ b hb) hbr)
    = layerMul agg xb inv wl wr b := by
  funext j
  obtain ⟨p, q, rfl⟩ : ∃ (p : Fin M) (q : Fin N), j = ix2 p q := ⟨j 0, j 1, eq_ix2 j⟩
  rw [layerMul_apply, addf_apply, addf_apply]
  show FloatOps.matmul d none _ _ (constant ⟨2, ![M, N]⟩ .f32 0x00000000#32) (ix2 p q)
      + FloatOps.matmul d none _ _ (constant ⟨2, ![M, N]⟩ .f32 0x00000000#32) (ix2 p q) + _ = _
  rw [PlainDot.matmul_zero_apply d hd, PlainDot.matmul_zero_apply d hd, broadcastTo_1b_ab_apply]
  refine congrArg₂ (· + ·) (congrArg₂ (· + ·) (Finset.sum_congr rfl fun k _ => ?_) (Finset.sum_congr rfl fun k _ => ?_)) ?_
  · show (shapeCast ⟨2, ![M, K]⟩ agg ha (ix2 p k) * broadcastTo ⟨2, ![M, K]⟩ (shapeCast ⟨2, ![M, 1]⟩ inv hc) hbc (ix2 p k)) * wl (ix2 k q) = _
    rw [broadcastTo_a1_ab_apply, shapeCast_self, shapeCast_self]
  · rfl
  · rw [shapeCast_self]

/-- The first stage: own features narrowed in the body, maximum with zero, the result narrowed. -/
theorem tileFirst_eq (d : DotDims ⟨2, ![M, K]⟩ ⟨2, ![K, N]⟩ ⟨2, ![M, N]⟩) (hd : d = DotDims.plain M K N)
    (inv : FVec Ideal ⟨2, ![M, 1]⟩ .f32) (agg x : FVec Ideal ⟨2, ![M, K]⟩ .f32)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    truncf .bf16 (maximumf (addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none (truncf .bf16 x t) (truncf .bf16 wr t) (constant ⟨2, ![M, N]⟩ .f32 0x00000000#32)))
      (broadcastTo ⟨2, ![M, N]⟩ (shapeCast ⟨2, ![1, N]⟩ b hb) hbr))
      (broadcast ⟨2, ![M, N]⟩ (Scalar.ofBits (F := Ideal) .f32 0x00000000#32))) t
    = layerMulRelu agg x inv wl wr b := by
  funext j
  exact congrArg (fun v => max v zeroWord)
    (congrFun (tileMul_eq d hd inv agg (truncf .bf16 x t) wl wr b hc ha hb hbc hbr t) j)

/-- The second stage: own features arrive narrowed and pass through a cast to their own shape; no activation. -/
theorem tileSecond_eq (d : DotDims ⟨2, ![M, K]⟩ ⟨2, ![K, N]⟩ ⟨2, ![M, N]⟩) (hd : d = DotDims.plain M K N)
    (inv : FVec Ideal ⟨2, ![M, 1]⟩ .f32) (agg : FVec Ideal ⟨2, ![M, K]⟩ .f32) (h : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (mulf (shapeCast ⟨2, ![M, K]⟩ agg ha)
            (broadcastTo ⟨2, ![M, K]⟩ (shapeCast ⟨2, ![M, 1]⟩ inv hc) hbc)) t)
          (truncf .bf16 wl t) (constant ⟨2, ![M, N]⟩ .f32 0x00000000#32))
        (matmul d none (shapeCast ⟨2, ![M, K]⟩ h ha) (truncf .bf16 wr t) (constant ⟨2, ![M, N]⟩ .f32 0x00000000#32)))
      (broadcastTo ⟨2, ![M, N]⟩ (shapeCast ⟨2, ![1, N]⟩ b hb) hbr)
    = layerMul agg h inv wl wr b := by
  rw [tileMul_eq d hd inv agg (shapeCast ⟨2, ![M, K]⟩ h ha) wl wr b hc ha hb hbc hbr t, shapeCast_self]

end Cert.Sage

end
-- ==== Proof.KernelTile.lean ====
/-
  What one grid point of each of the three kernels stores, read over the extended reals.

  Each kernel body takes a tile of 5000 rows: the tile's neighbour sums `x0`, its reciprocal-count column `x1`, its
  own features `x2`, the two weight matrices `x3` (neighbours) and `x5` (own features) and the bias row `x4`, and stores

      (x0 · x1) · x3  +  x2 · x5  +  x4        (the first two kernels then take the maximum with zero)

  the operands of the two products narrowed to a shorter float format first, which changes nothing here.  Entry by
  entry this is the mean-aggregation layer with a reciprocal column, of the tile's arrays.
-/
import proofs.«167675_j67783173865548_2_alg».proof.Proof.Gen.KernelIdeal.Skeleton
import proofs.«167675_j67783173865548_2_alg».proof.Proof.LibSageTile

noncomputable section

namespace Cert.KernelIdeal.Hand

open Idealize.ShloMosaic Idealize.ShloMosaic.ValueIdx Cert.KernelIdeal Cert.KernelIdeal.Gen

/-- The kernels' matrix product contracts the left operand's columns with the right operand's rows. -/
theorem dot_plain : dot_S5000x128_S128x128_S5000x128_1_0_0_1_n_n = DotDims.plain 5000 128 128 := rfl

/-- The body's sum before any activation, its own features given in the shorter format. -/
theorem tile_eq (x0 : FVec Ideal S5000x128 .f32) (x1 : FVec Ideal S5000x1 .f32) (xb : FVec Ideal S5000x128 .bf16)
    (x3 x5 : FVec Ideal S128x128 .f32) (x4 : FVec Ideal S1x128 .f32) :
    addf (addf
        (matmul dot_S5000x128_S128x128_S5000x128_1_0_0_1_n_n none
          (truncf .bf16 (mulf (shapeCast S5000x128 x0 shapeCasts_S5000x128_S5000x128)
            (broadcastTo S5000x128 (shapeCast S5000x1 x1 shapeCasts_S5000x1_S5000x1) broadcasts_S5000x1_S5000x128)) bitsLt_bf16_f32)
          (truncf .bf16 x3 bitsLt_bf16_f32) (constant S5000x128 .f32 0x00000000#32))
        (matmul dot_S5000x128_S128x128_S5000x128_1_0_0_1_n_n none xb (truncf .bf16 x5 bitsLt_bf16_f32)
          (constant S5000x128 .f32 0x00000000#32)))
      (broadcastTo S5000x128 (shapeCast S1x128 (shapeCast S1x128 x4 shapeCasts_S1x128_S1x128) shapeCasts_S1x128_S1x128)
        broadcasts_S1x128_S5000x128)
    = Sage.layerMul x0 xb x1 x3 x5 x4 :=
  (Sage.tileMul_eq dot_S5000x128_S128x128_S5000x128_1_0_0_1_n_n dot_plain x1 x0 xb x3 x5
      (shapeCast S1x128 x4 shapeCasts_S1x128_S1x128) shapeCasts_S5000x1_S5000x1 shapeCasts_S5000x128_S5000x128
      shapeCasts_S1x128_S1x128 broadcasts_S5000x1_S5000x128 broadcasts_S1x128_S5000x128 bitsLt_bf16_f32).trans
    (congrArg (fun b => Sage.layerMul x0 xb x1 x3 x5 b) (shapeCast_self x4 shapeCasts_S1x128_S1x128))

/-- The same sum with the tile's own features passing through a cast to their own shape before they are narrowed. -/
theorem tile1_eq (x0 : FVec Ideal S5000x128 .f32) (x1 : FVec Ideal S5000x1 .f32) (x2 : FVec Ideal S5000x128 .f32)
    (x3 x5 : FVec Ideal S128x128 .f32) (x4 : FVec Ideal S1x128 .f32) :
    addf (addf
        (matmul dot_S5000x128_S128x128_S5000x128_1_0_0_1_n_n none
          (truncf .bf16 (mulf (shapeCast S5000x128 x0 shapeCasts_S5000x128_S5000x128)
            (broadcastTo S5000x128 (shapeCast S5000x1 x1 shapeCasts_S5000x1_S5000x1) broadcasts_S5000x1_S5000x128)) bitsLt_bf16_f32)
          (truncf .bf16 x3 bitsLt_bf16_f32) (constant S5000x128 .f32 0x00000000#32))
        (matmul dot_S5000x128_S128x128_S5000x128_1_0_0_1_n_n none
          (truncf .bf16 (shapeCast S5000x128 x2 shapeCasts_S5000x128_S5000x128) bitsLt_bf16_f32) (truncf .bf16 x5 bitsLt_bf16_f32)
          (constant S5000x128 .f32 0x00000000#32)))
      (broadcastTo S5000x128 (shapeCast S1x128 (shapeCast S1x128 x4 shapeCasts_S1x128_S1x128) shapeCasts_S1x128_S1x128)
        broadcasts_S1x128_S5000x128)
    = Sage.layerMul x0 x2 x1 x3 x5 x4 :=
  (tile_eq x0 x1 (truncf .bf16 (shapeCast S5000x128 x2 shapeCasts_S5000x128_S5000x128) bitsLt_bf16_f32) x3 x5 x4).trans
    (congrArg (fun h : S5000x128.Idx → EReal => Sage.layerMul x0 h x1 x3 x5 x4)
      (shapeCast_self (x2 : S5000x128.Idx → EReal) shapeCasts_S5000x128_S5000x128))

/-- The first kernel's stored tile. -/
theorem pay0_eq (x0 : Vec Ideal S5000x128 .f32) (x1 : Vec Ideal S5000x1 .f32) (x2 : Vec Ideal S5000x128 .f32)
    (x3 x5 : Vec Ideal S128x128 .f32) (x4 : Vec Ideal S1x128 .f32) :
    k0_pay1 (F := Ideal) x0 x1 x2 x3 x5 x4 = Sage.layerMulRelu x0 x2 x1 x3 x5 x4 := by
  funext j
  exact congrArg (fun v => max v Sage.zeroWord)
    (congrFun (tile_eq x0 x1 (truncf .bf16 x2 bitsLt_bf16_f32) x3 x5 x4) j)

/-- The second kernel's stored tile: the same body (its own features pass through a cast to their own shape first). -/
theorem pay1_eq (x0 : Vec Ideal S5000x128 .f32) (x1 : Vec Ideal S5000x1 .f32) (x2 : Vec Ideal S5000x128 .f32)
    (x3 x5 : Vec Ideal S128x128 .f32) (x4 : Vec Ideal S1x128 .f32) :
    k1_pay1 (F := Ideal) x0 x1 x2 x3 x5 x4 = Sage.layerMulRelu x0 x2 x1 x3 x5 x4 := by
  funext j
  exact congrArg (fun v => max v Sage.zeroWord) (congrFun (tile1_eq x0 x1 x2 x3 x5 x4) j)

/-- The third kernel's stored tile: no activation. -/
theorem pay2_eq (x0 : Vec Ideal S5000x128 .f32) (x1 : Vec Ideal S5000x1 .f32) (x2 : Vec Ideal S5000x128 .f32)
    (x3 x5 : Vec Ideal S128x128 .f32) (x4 : Vec Ideal S1x128 .f32) :
    k2_pay1 (F := Ideal) x0 x1 x2 x3 x5 x4 = Sage.layerMul x0 x2 x1 x3 x5 x4 :=
  tile1_eq x0 x1 x2 x3 x5 x4

end Cert.KernelIdeal.Hand

end
-- ==== Proof.KernelRegion0.lean ====
/-
  The array the first kernel leaves, as one function of the arrays it finds.

  The kernel runs over ten tiles of 5000 rows.  Tile `t` reads rows `5000 t … 5000 t + 4999` of the neighbour sums, of the
  reciprocal-count column and of the node features, reads the two weight matrices and the bias row whole, and writes rows
  `5000 t … 5000 t + 4999` of the result.  A row of the layer depends on the same row of the neighbour sums, the features and
  the column only, so what tile `t` writes is block `t` of the layer of the WHOLE arrays; the ten blocks tile the 50000 rows,
  so after the last tile the result array is the layer (with its maximum with zero) of the whole arrays.  Everything is stated at
  arbitrary contents `V` of the buffers when the kernel starts.
-/
import proofs.«167675_j67783173865548_2_alg».proof.Proof.KernelIdealFrameP
import proofs.«167675_j67783173865548_2_alg».proof.Proof.KernelTile
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the ten tiles: the three row-tiled inputs and the output sit at block row `t`,
    the matrices and the bias row at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Tile `t` of the neighbour sums is rows `5000 t …` of the array. -/
theorem blk0_0 (c : Dev nD) (t : Fin cfg0.N) (x : S5000x128.Idx) (k : S50000x128.Idx)
    (h0 : (k 0).val = t.val * 5000 + (x 0).val) (h1 : (k 1).val = (x 1).val) :
    (iblk0 V c 0 t : Vec Ideal S5000x128 .f32) x = (V c main_v22 : S50000x128.Idx → EReal) k := by
  obtain ⟨e0, e1, -⟩ := idx0 t
  unfold iblk0
  rw [View.read_apply]
  show V c main_v22 _ = V c main_v22 _
  congr 1
  funext a; apply Fin.ext
  match a with
  | ⟨0, _⟩ => show win0_0.index t (0 : Fin 2) * 5000 + 1 * (x 0).val = (k 0).val; rw [e0, h0]; omega
  | ⟨1, _⟩ => show win0_0.index t (1 : Fin 2) * 128 + 1 * (x 1).val = (k 1).val; rw [e1, h1]; omega

/-- Tile `t` of the reciprocal-count column is rows `5000 t …` of the column. -/
theorem blk0_1 (c : Dev nD) (t : Fin cfg0.N) (x : S5000x1.Idx) (k : S50000x1.Idx)
    (h0 : (k 0).val = t.val * 5000 + (x 0).val) (h1 : (k 1).val = (x 1).val) :
    (iblk0 V c 1 t : Vec Ideal S5000x1 .f32) x = (V c main_v12 : S50000x1.Idx → EReal) k := by
  obtain ⟨-, -, e0, e1, -⟩ := idx0 t
  unfold iblk0
  rw [View.read_apply]
  show V c main_v12 _ = V c main_v12 _
  congr 1
  funext a; apply Fin.ext
  match a with
  | ⟨0, _⟩ => show win0_1.index t (0 : Fin 2) * 5000 + 1 * (x 0).val = (k 0).val; rw [e0, h0]; omega
  | ⟨1, _⟩ => show win0_1.index t (1 : Fin 2) * 1 + 1 * (x 1).val = (k 1).val; rw [e1, h1]; omega

/-- Tile `t` of the node features is rows `5000 t …` of the array. -/
theorem blk0_2 (c : Dev nD) (t : Fin cfg0.N) (x : S5000x128.Idx) (k : S50000x128.Idx)
    (h0 : (k 0).val = t.val * 5000 + (x 0).val) (h1 : (k 1).val = (x 1).val) :
    (iblk0 V c 2 t : Vec Ideal S5000x128 .f32) x = (V c main_arg0 : S50000x128.Idx → EReal) k := by
  obtain ⟨-, -, -, -, e0, e1, -⟩ := idx0 t
  unfold iblk0
  rw [View.read_apply]
  show V c main_arg0 _ = V c main_arg0 _
  congr 1
  funext a; apply Fin.ext
  match a with
  | ⟨0, _⟩ => show win0_2.index t (0 : Fin 2) * 5000 + 1 * (x 0).val = (k 0).val; rw [e0, h0]; omega
  | ⟨1, _⟩ => show win0_2.index t (1 : Fin 2) * 128 + 1 * (x 1).val = (k 1).val; rw [e1, h1]; omega

/-- Every tile reads the neighbours' weight matrix whole. -/
theorem blk0_3 (c : Dev nD) (t : Fin cfg0.N) :
    (iblk0 V c 3 t : Vec Ideal S128x128 .f32) = (V c main_arg2 : S128x128.Idx → EReal) := by
  obtain ⟨-, -, -, -, -, -, e0, e1, -⟩ := idx0 t
  funext x
  unfold iblk0
  rw [View.read_apply]
  show V c main_arg2 _ = V c main_arg2 _
  congr 1
  funext a; apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- Every tile reads the bias row whole. -/
theorem blk0_4 (c : Dev nD) (t : Fin cfg0.N) :
    (iblk0 V c 4 t : Vec Ideal S1x128 .f32) = (V c main_v23 : S1x128.Idx → EReal) := by
  obtain ⟨-, -, -, -, -, -, -, -, e0, e1, -⟩ := idx0 t
  funext x
  unfold iblk0
  rw [View.read_apply]
  show V c main_v23 _ = V c main_v23 _
  congr 1
  funext a; apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- Every tile reads the own-features weight matrix whole. -/
theorem blk0_5 (c : Dev nD) (t : Fin cfg0.N) :
    (iblk0 V c 5 t : Vec Ideal S128x128 .f32) = (V c main_arg4 : S128x128.Idx → EReal) := by
  obtain ⟨-, -, -, -, -, -, -, -, -, -, e0, e1, -⟩ := idx0 t
  funext x
  unfold iblk0
  rw [View.read_apply]
  show V c main_arg4 _ = V c main_arg4 _
  congr 1
  funext a; apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- The layer of the whole arrays the kernel finds. -/
def whole0 (c : Dev nD) : S50000x128.Idx → EReal :=
  Sage.layerMulRelu (V c main_v22 : S50000x128.Idx → EReal) (V c main_arg0 : S50000x128.Idx → EReal) (V c main_v12 : S50000x1.Idx → EReal)
    (V c main_arg2 : S128x128.Idx → EReal) (V c main_arg4 : S128x128.Idx → EReal) (V c main_v23 : S1x128.Idx → EReal)

/-- What tile `t` writes back is block `t` of the layer of the whole arrays. -/
theorem flushed0_eq (c : Dev nD) (t : Fin cfg0.N) :
    (dat0 V c).flushed 6 t = ((cfg0.win 6).blk t).view.read (Elt Ideal) (whole0 V c) := by
  have hN : cfg0.N = 10 := N_0
  have ht : t.val < 10 := hN ▸ t.isLt
  show (cfg0.win 6).cut (grid0.coords t) ((dat0 V c).after 6 t) = _
  rw [after0_6]
  unfold out0_6
  rw [View.canon_unit_zero hz0]
  simp only [View.ld_unit_zero (S := S5000x128) hz0, View.ld_unit_zero (S := S5000x1) hz0,
    View.ld_unit_zero (S := S128x128) hz0, View.ld_unit_zero (S := S1x128) hz0]
  rw [pay0_eq]
  obtain ⟨-, -, -, -, -, -, -, -, -, -, -, -, e0, e1⟩ := idx0 t
  funext j
  obtain ⟨p, q, rfl⟩ : ∃ (p : Fin 5000) (q : Fin 128), j = ix2 p q := ⟨j 0, j 1, eq_ix2 j⟩
  have hp : p.val < 5000 := p.isLt
  have hemb : ((cfg0.win 6).blk t).view.emb (ix2 p q) = (ix2 (⟨t.val * 5000 + p.val, by omega⟩ : Fin 50000) q : S50000x128.Idx) := by
    funext a; apply Fin.ext
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  show Sage.layerMulRelu _ _ _ _ _ _ (ix2 p q) = whole0 V c (((cfg0.win 6).blk t).view.emb (ix2 p q))
  rw [hemb]
  unfold whole0
  exact Sage.layerMulRelu_row_congr (V c main_v22 : S50000x128.Idx → EReal) (V c main_arg0 : S50000x128.Idx → EReal) (V c main_v12 : S50000x1.Idx → EReal)
    (iblk0 V c 0 t : Vec Ideal S5000x128 .f32) (iblk0 V c 2 t : Vec Ideal S5000x128 .f32) (iblk0 V c 1 t : Vec Ideal S5000x1 .f32)
    (V c main_arg2 : S128x128.Idx → EReal) (V c main_arg4 : S128x128.Idx → EReal) (V c main_v23 : S1x128.Idx → EReal)
    (iblk0 V c 3 t : Vec Ideal S128x128 .f32) (iblk0 V c 5 t : Vec Ideal S128x128 .f32) (iblk0 V c 4 t : Vec Ideal S1x128 .f32)
    ⟨t.val * 5000 + p.val, by omega⟩ p q
    (fun k => blk0_0 V c t (ix2 p k) (ix2 (⟨t.val * 5000 + p.val, by omega⟩ : Fin 50000) k) rfl rfl)
    (fun k => blk0_2 V c t (ix2 p k) (ix2 (⟨t.val * 5000 + p.val, by omega⟩ : Fin 50000) k) rfl rfl)
    (blk0_1 V c t (ix2 p (0 : Fin 1)) (ix2 (⟨t.val * 5000 + p.val, by omega⟩ : Fin 50000) (0 : Fin 1)) rfl rfl)
    (blk0_3 V c t) (blk0_5 V c t) (blk0_4 V c t)

/-- An index of the result array is in tile `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Row `r` of the result is in the block of tile `r / 5000`. -/
theorem cover0 (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  have hlt : (i 0).val / 5000 < cfg0.N := by rw [hN]; omega
  obtain ⟨-, -, -, -, -, -, -, -, -, -, -, -, e0, e1⟩ := idx0 ⟨(i 0).val / 5000, hlt⟩
  refine ⟨⟨(i 0).val / 5000, hlt⟩, flush0_6 _, ?_⟩
  rw [mem_blk0]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]; omega

/-- After the last tile the result array is the layer of the whole arrays the kernel found. -/
theorem final0 (c : Dev nD) : (dat0 V c).arrAt 6 cfg0.N = whole0 V c :=
  (dat0 V c).arrAt_eq_of_cover 6 (whole0 V c) (fun t _ => flushed0_eq V c t) cover0

end Cert.KernelIdeal.Hand

end
-- ==== Proof.KernelRegion1.lean ====
/-
  The array the second kernel leaves, as one function of the arrays it finds.

  The kernel runs over ten tiles of 5000 rows.  Tile `t` reads rows `5000 t … 5000 t + 4999` of the neighbour sums, of the
  reciprocal-count column and of the node features, reads the two weight matrices and the bias row whole, and writes rows
  `5000 t … 5000 t + 4999` of the result.  A row of the layer depends on the same row of the neighbour sums, the features and
  the column only, so what tile `t` writes is block `t` of the layer of the WHOLE arrays; the ten blocks tile the 50000 rows,
  so after the last tile the result array is the layer (with its maximum with zero) of the whole arrays.  Everything is stated at
  arbitrary contents `V` of the buffers when the kernel starts.
-/
import proofs.«167675_j67783173865548_2_alg».proof.Proof.KernelIdealFrameP
import proofs.«167675_j67783173865548_2_alg».proof.Proof.KernelTile
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the ten tiles: the three row-tiled inputs and the output sit at block row `t`,
    the matrices and the bias row at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Tile `t` of the neighbour sums is rows `5000 t …` of the array. -/
theorem blk1_0 (c : Dev nD) (t : Fin cfg1.N) (x : S5000x128.Idx) (k : S50000x128.Idx)
    (h0 : (k 0).val = t.val * 5000 + (x 0).val) (h1 : (k 1).val = (x 1).val) :
    (iblk1 V c 0 t : Vec Ideal S5000x128 .f32) x = (V c main_v34 : S50000x128.Idx → EReal) k := by
  obtain ⟨e0, e1, -⟩ := idx1 t
  unfold iblk1
  rw [View.read_apply]
  show V c main_v34 _ = V c main_v34 _
  congr 1
  funext a; apply Fin.ext
  match a with
  | ⟨0, _⟩ => show win1_0.index t (0 : Fin 2) * 5000 + 1 * (x 0).val = (k 0).val; rw [e0, h0]; omega
  | ⟨1, _⟩ => show win1_0.index t (1 : Fin 2) * 128 + 1 * (x 1).val = (k 1).val; rw [e1, h1]; omega

/-- Tile `t` of the reciprocal-count column is rows `5000 t …` of the column. -/
theorem blk1_1 (c : Dev nD) (t : Fin cfg1.N) (x : S5000x1.Idx) (k : S50000x1.Idx)
    (h0 : (k 0).val = t.val * 5000 + (x 0).val) (h1 : (k 1).val = (x 1).val) :
    (iblk1 V c 1 t : Vec Ideal S5000x1 .f32) x = (V c main_v12 : S50000x1.Idx → EReal) k := by
  obtain ⟨-, -, e0, e1, -⟩ := idx1 t
  unfold iblk1
  rw [View.read_apply]
  show V c main_v12 _ = V c main_v12 _
  congr 1
  funext a; apply Fin.ext
  match a with
  | ⟨0, _⟩ => show win1_1.index t (0 : Fin 2) * 5000 + 1 * (x 0).val = (k 0).val; rw [e0, h0]; omega
  | ⟨1, _⟩ => show win1_1.index t (1 : Fin 2) * 1 + 1 * (x 1).val = (k 1).val; rw [e1, h1]; omega

/-- Tile `t` of the node features is rows `5000 t …` of the array. -/
theorem blk1_2 (c : Dev nD) (t : Fin cfg1.N) (x : S5000x128.Idx) (k : S50000x128.Idx)
    (h0 : (k 0).val = t.val * 5000 + (x 0).val) (h1 : (k 1).val = (x 1).val) :
    (iblk1 V c 2 t : Vec Ideal S5000x128 .f32) x = (V c main_v24 : S50000x128.Idx → EReal) k := by
  obtain ⟨-, -, -, -, e0, e1, -⟩ := idx1 t
  unfold iblk1
  rw [View.read_apply]
  show V c main_v24 _ = V c main_v24 _
  congr 1
  funext a; apply Fin.ext
  match a with
  | ⟨0, _⟩ => show win1_2.index t (0 : Fin 2) * 5000 + 1 * (x 0).val = (k 0).val; rw [e0, h0]; omega
  | ⟨1, _⟩ => show win1_2.index t (1 : Fin 2) * 128 + 1 * (x 1).val = (k 1).val; rw [e1, h1]; omega

/-- Every tile reads the neighbours' weight matrix whole. -/
theorem blk1_3 (c : Dev nD) (t : Fin cfg1.N) :
    (iblk1 V c 3 t : Vec Ideal S128x128 .f32) = (V c main_arg5 : S128x128.Idx → EReal) := by
  obtain ⟨-, -, -, -, -, -, e0, e1, -⟩ := idx1 t
  funext x
  unfold iblk1
  rw [View.read_apply]
  show V c main_arg5 _ = V c main_arg5 _
  congr 1
  funext a; apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- Every tile reads the bias row whole. -/
theorem blk1_4 (c : Dev nD) (t : Fin cfg1.N) :
    (iblk1 V c 4 t : Vec Ideal S1x128 .f32) = (V c main_v35 : S1x128.Idx → EReal) := by
  obtain ⟨-, -, -, -, -, -, -, -, e0, e1, -⟩ := idx1 t
  funext x
  unfold iblk1
  rw [View.read_apply]
  show V c main_v35 _ = V c main_v35 _
  congr 1
  funext a; apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Every tile reads the own-features weight matrix whole. -/
theorem blk1_5 (c : Dev nD) (t : Fin cfg1.N) :
    (iblk1 V c 5 t : Vec Ideal S128x128 .f32) = (V c main_arg7 : S128x128.Idx → EReal) := by
  obtain ⟨-, -, -, -, -, -, -, -, -, -, e0, e1, -⟩ := idx1 t
  funext x
  unfold iblk1
  rw [View.read_apply]
  show V c main_arg7 _ = V c main_arg7 _
  congr 1
  funext a; apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The layer of the whole arrays the kernel finds. -/
def whole1 (c : Dev nD) : S50000x128.Idx → EReal :=
  Sage.layerMulRelu (V c main_v34 : S50000x128.Idx → EReal) (V c main_v24 : S50000x128.Idx → EReal) (V c main_v12 : S50000x1.Idx → EReal)
    (V c main_arg5 : S128x128.Idx → EReal) (V c main_arg7 : S128x128.Idx → EReal) (V c main_v35 : S1x128.Idx → EReal)

/-- What tile `t` writes back is block `t` of the layer of the whole arrays. -/
theorem flushed1_eq (c : Dev nD) (t : Fin cfg1.N) :
    (dat1 V c).flushed 6 t = ((cfg1.win 6).blk t).view.read (Elt Ideal) (whole1 V c) := by
  have hN : cfg1.N = 10 := N_1
  have ht : t.val < 10 := hN ▸ t.isLt
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1,
    View.ld_unit_zero (S := S128x128) hz1, View.ld_unit_zero (S := S1x128) hz1]
  rw [pay1_eq]
  obtain ⟨-, -, -, -, -, -, -, -, -, -, -, -, e0, e1⟩ := idx1 t
  funext j
  obtain ⟨p, q, rfl⟩ : ∃ (p : Fin 5000) (q : Fin 128), j = ix2 p q := ⟨j 0, j 1, eq_ix2 j⟩
  have hp : p.val < 5000 := p.isLt
  have hemb : ((cfg1.win 6).blk t).view.emb (ix2 p q) = (ix2 (⟨t.val * 5000 + p.val, by omega⟩ : Fin 50000) q : S50000x128.Idx) := by
    funext a; apply Fin.ext
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega
  show Sage.layerMulRelu _ _ _ _ _ _ (ix2 p q) = whole1 V c (((cfg1.win 6).blk t).view.emb (ix2 p q))
  rw [hemb]
  unfold whole1
  exact Sage.layerMulRelu_row_congr (V c main_v34 : S50000x128.Idx → EReal) (V c main_v24 : S50000x128.Idx → EReal) (V c main_v12 : S50000x1.Idx → EReal)
    (iblk1 V c 0 t : Vec Ideal S5000x128 .f32) (iblk1 V c 2 t : Vec Ideal S5000x128 .f32) (iblk1 V c 1 t : Vec Ideal S5000x1 .f32)
    (V c main_arg5 : S128x128.Idx → EReal) (V c main_arg7 : S128x128.Idx → EReal) (V c main_v35 : S1x128.Idx → EReal)
    (iblk1 V c 3 t : Vec Ideal S128x128 .f32) (iblk1 V c 5 t : Vec Ideal S128x128 .f32) (iblk1 V c 4 t : Vec Ideal S1x128 .f32)
    ⟨t.val * 5000 + p.val, by omega⟩ p q
    (fun k => blk1_0 V c t (ix2 p k) (ix2 (⟨t.val * 5000 + p.val, by omega⟩ : Fin 50000) k) rfl rfl)
    (fun k => blk1_2 V c t (ix2 p k) (ix2 (⟨t.val * 5000 + p.val, by omega⟩ : Fin 50000) k) rfl rfl)
    (blk1_1 V c t (ix2 p (0 : Fin 1)) (ix2 (⟨t.val * 5000 + p.val, by omega⟩ : Fin 50000) (0 : Fin 1)) rfl rfl)
    (blk1_3 V c t) (blk1_5 V c t) (blk1_4 V c t)

/-- An index of the result array is in tile `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- Row `r` of the result is in the block of tile `r / 5000`. -/
theorem cover1 (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  have hlt : (i 0).val / 5000 < cfg1.N := by rw [hN]; omega
  obtain ⟨-, -, -, -, -, -, -, -, -, -, -, -, e0, e1⟩ := idx1 ⟨(i 0).val / 5000, hlt⟩
  refine ⟨⟨(i 0).val / 5000, hlt⟩, flush1_6 _, ?_⟩
  rw [mem_blk1]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    rw [e1]; omega

/-- After the last tile the result array is the layer of the whole arrays the kernel found. -/
theorem final1 (c : Dev nD) : (dat1 V c).arrAt 6 cfg1.N = whole1 V c :=
  (dat1 V c).arrAt_eq_of_cover 6 (whole1 V c) (fun t _ => flushed1_eq V c t) cover1

end Cert.KernelIdeal.Hand

end
-- ==== Proof.KernelRegion2.lean ====
/-
  The array the third kernel leaves, as one function of the arrays it finds.

  The kernel runs over ten tiles of 5000 rows.  Tile `t` reads rows `5000 t … 5000 t + 4999` of the neighbour sums, of the
  reciprocal-count column and of the node features, reads the two weight matrices and the bias row whole, and writes rows
  `5000 t … 5000 t + 4999` of the result.  A row of the layer depends on the same row of the neighbour sums, the features and
  the column only, so what tile `t` writes is block `t` of the layer of the WHOLE arrays; the ten blocks tile the 50000 rows,
  so after the last tile the result array is the layer (no activation) of the whole arrays.  Everything is stated at
  arbitrary contents `V` of the buffers when the kernel starts.
-/
import proofs.«167675_j67783173865548_2_alg».proof.Proof.KernelIdealFrameP
import proofs.«167675_j67783173865548_2_alg».proof.Proof.KernelTile
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the ten tiles: the three row-tiled inputs and the output sit at block row `t`,
    the matrices and the bias row at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Tile `t` of the neighbour sums is rows `5000 t …` of the array. -/
theorem blk2_0 (c : Dev nD) (t : Fin cfg2.N) (x : S5000x128.Idx) (k : S50000x128.Idx)
    (h0 : (k 0).val = t.val * 5000 + (x 0).val) (h1 : (k 1).val = (x 1).val) :
    (iblk2 V c 0 t : Vec Ideal S5000x128 .f32) x = (V c main_v46 : S50000x128.Idx → EReal) k := by
  obtain ⟨e0, e1, -⟩ := idx2 t
  unfold iblk2
  rw [View.read_apply]
  show V c main_v46 _ = V c main_v46 _
  congr 1
  funext a; apply Fin.ext
  match a with
  | ⟨0, _⟩ => show win2_0.index t (0 : Fin 2) * 5000 + 1 * (x 0).val = (k 0).val; rw [e0, h0]; omega
  | ⟨1, _⟩ => show win2_0.index t (1 : Fin 2) * 128 + 1 * (x 1).val = (k 1).val; rw [e1, h1]; omega

/-- Tile `t` of the reciprocal-count column is rows `5000 t …` of the column. -/
theorem blk2_1 (c : Dev nD) (t : Fin cfg2.N) (x : S5000x1.Idx) (k : S50000x1.Idx)
    (h0 : (k 0).val = t.val * 5000 + (x 0).val) (h1 : (k 1).val = (x 1).val) :
    (iblk2 V c 1 t : Vec Ideal S5000x1 .f32) x = (V c main_v12 : S50000x1.Idx → EReal) k := by
  obtain ⟨-, -, e0, e1, -⟩ := idx2 t
  unfold iblk2
  rw [View.read_apply]
  show V c main_v12 _ = V c main_v12 _
  congr 1
  funext a; apply Fin.ext
  match a with
  | ⟨0, _⟩ => show win2_1.index t (0 : Fin 2) * 5000 + 1 * (x 0).val = (k 0).val; rw [e0, h0]; omega
  | ⟨1, _⟩ => show win2_1.index t (1 : Fin 2) * 1 + 1 * (x 1).val = (k 1).val; rw [e1, h1]; omega

/-- Tile `t` of the node features is rows `5000 t …` of the array. -/
theorem blk2_2 (c : Dev nD) (t : Fin cfg2.N) (x : S5000x128.Idx) (k : S50000x128.Idx)
    (h0 : (k 0).val = t.val * 5000 + (x 0).val) (h1 : (k 1).val = (x 1).val) :
    (iblk2 V c 2 t : Vec Ideal S5000x128 .f32) x = (V c main_v36 : S50000x128.Idx → EReal) k := by
  obtain ⟨-, -, -, -, e0, e1, -⟩ := idx2 t
  unfold iblk2
  rw [View.read_apply]
  show V c main_v36 _ = V c main_v36 _
  congr 1
  funext a; apply Fin.ext
  match a with
  | ⟨0, _⟩ => show win2_2.index t (0 : Fin 2) * 5000 + 1 * (x 0).val = (k 0).val; rw [e0, h0]; omega
  | ⟨1, _⟩ => show win2_2.index t (1 : Fin 2) * 128 + 1 * (x 1).val = (k 1).val; rw [e1, h1]; omega

/-- Every tile reads the neighbours' weight matrix whole. -/
theorem blk2_3 (c : Dev nD) (t : Fin cfg2.N) :
    (iblk2 V c 3 t : Vec Ideal S128x128 .f32) = (V c main_arg8 : S128x128.Idx → EReal) := by
  obtain ⟨-, -, -, -, -, -, e0, e1, -⟩ := idx2 t
  funext x
  unfold iblk2
  rw [View.read_apply]
  show V c main_arg8 _ = V c main_arg8 _
  congr 1
  funext a; apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- Every tile reads the bias row whole. -/
theorem blk2_4 (c : Dev nD) (t : Fin cfg2.N) :
    (iblk2 V c 4 t : Vec Ideal S1x128 .f32) = (V c main_v47 : S1x128.Idx → EReal) := by
  obtain ⟨-, -, -, -, -, -, -, -, e0, e1, -⟩ := idx2 t
  funext x
  unfold iblk2
  rw [View.read_apply]
  show V c main_v47 _ = V c main_v47 _
  congr 1
  funext a; apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Every tile reads the own-features weight matrix whole. -/
theorem blk2_5 (c : Dev nD) (t : Fin cfg2.N) :
    (iblk2 V c 5 t : Vec Ideal S128x128 .f32) = (V c main_arg10 : S128x128.Idx → EReal) := by
  obtain ⟨-, -, -, -, -, -, -, -, -, -, e0, e1, -⟩ := idx2 t
  funext x
  unfold iblk2
  rw [View.read_apply]
  show V c main_arg10 _ = V c main_arg10 _
  congr 1
  funext a; apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The layer of the whole arrays the kernel finds. -/
def whole2 (c : Dev nD) : S50000x128.Idx → EReal :=
  Sage.layerMul (V c main_v46 : S50000x128.Idx → EReal) (V c main_v36 : S50000x128.Idx → EReal) (V c main_v12 : S50000x1.Idx → EReal)
    (V c main_arg8 : S128x128.Idx → EReal) (V c main_arg10 : S128x128.Idx → EReal) (V c main_v47 : S1x128.Idx → EReal)

/-- What tile `t` writes back is block `t` of the layer of the whole arrays. -/
theorem flushed2_eq (c : Dev nD) (t : Fin cfg2.N) :
    (dat2 V c).flushed 6 t = ((cfg2.win 6).blk t).view.read (Elt Ideal) (whole2 V c) := by
  have hN : cfg2.N = 10 := N_2
  have ht : t.val < 10 := hN ▸ t.isLt
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2,
    View.ld_unit_zero (S := S128x128) hz2, View.ld_unit_zero (S := S1x128) hz2]
  rw [pay2_eq]
  obtain ⟨-, -, -, -, -, -, -, -, -, -, -, -, e0, e1⟩ := idx2 t
  funext j
  obtain ⟨p, q, rfl⟩ : ∃ (p : Fin 5000) (q : Fin 128), j = ix2 p q := ⟨j 0, j 1, eq_ix2 j⟩
  have hp : p.val < 5000 := p.isLt
  have hemb : ((cfg2.win 6).blk t).view.emb (ix2 p q) = (ix2 (⟨t.val * 5000 + p.val, by omega⟩ : Fin 50000) q : S50000x128.Idx) := by
    funext a; apply Fin.ext
    match a with
    | ⟨0, _⟩ => show win2_6.index t (0 : Fin 2) * 5000 + 1 * p.val = t.val * 5000 + p.val; rw [e0]; omega
    | ⟨1, _⟩ => show win2_6.index t (1 : Fin 2) * 128 + 1 * q.val = q.val; rw [e1]; omega
  show Sage.layerMul _ _ _ _ _ _ (ix2 p q) = whole2 V c (((cfg2.win 6).blk t).view.emb (ix2 p q))
  rw [hemb]
  unfold whole2
  exact Sage.layerMul_row_congr (V c main_v46 : S50000x128.Idx → EReal) (V c main_v36 : S50000x128.Idx → EReal) (V c main_v12 : S50000x1.Idx → EReal)
    (iblk2 V c 0 t : Vec Ideal S5000x128 .f32) (iblk2 V c 2 t : Vec Ideal S5000x128 .f32) (iblk2 V c 1 t : Vec Ideal S5000x1 .f32)
    (V c main_arg8 : S128x128.Idx → EReal) (V c main_arg10 : S128x128.Idx → EReal) (V c main_v47 : S1x128.Idx → EReal)
    (iblk2 V c 3 t : Vec Ideal S128x128 .f32) (iblk2 V c 5 t : Vec Ideal S128x128 .f32) (iblk2 V c 4 t : Vec Ideal S1x128 .f32)
    ⟨t.val * 5000 + p.val, by omega⟩ p q
    (fun k => blk2_0 V c t (ix2 p k) (ix2 (⟨t.val * 5000 + p.val, by omega⟩ : Fin 50000) k) rfl rfl)
    (fun k => blk2_2 V c t (ix2 p k) (ix2 (⟨t.val * 5000 + p.val, by omega⟩ : Fin 50000) k) rfl rfl)
    (blk2_1 V c t (ix2 p (0 : Fin 1)) (ix2 (⟨t.val * 5000 + p.val, by omega⟩ : Fin 50000) (0 : Fin 1)) rfl rfl)
    (blk2_3 V c t) (blk2_5 V c t) (blk2_4 V c t)

/-- An index of the result array is in tile `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v48).slice (win2_6.rect t)).set ↔ _
  rw [View.set_slice_whole, Rect.mem_set_unit]
  exact Iff.rfl

/-- Row `r` of the result is in the block of tile `r / 5000`. -/
theorem cover2 (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  have hlt : (i 0).val / 5000 < cfg2.N := by rw [hN]; omega
  obtain ⟨-, -, -, -, -, -, -, -, -, -, -, -, e0, e1⟩ := idx2 ⟨(i 0).val / 5000, hlt⟩
  refine ⟨⟨(i 0).val / 5000, hlt⟩, flush2_6 _, ?_⟩
  rw [mem_blk2]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 128 ≤ (i 1).val
      ∧ (i 1).val < win2_6.index ⟨(i 0).val / 5000, hlt⟩ (1 : Fin 2) * 128 + 128
    rw [e1]; omega

/-- After the last tile the result array is the layer of the whole arrays the kernel found. -/
theorem final2 (c : Dev nD) : (dat2 V c).arrAt 6 cfg2.N = whole2 V c :=
  (dat2 V c).arrAt_eq_of_cover 6 (whole2 V c) (fun t _ => flushed2_eq V c t) cover2

end Cert.KernelIdeal.Hand

end
-- ==== Proof.SageNet.lean ====
/-
  Three mean-aggregation layers in a row, as one function of whole arrays over the extended reals.

  A graph network with neighbour-sum operator `nb` (a function from node features to node features: row `p` of
  `nb h` is the sum of the rows of `h` at the neighbours of `p`) and a neighbour-count column `cnt` maps the features
  `x` to

      h₁ = max (layer (nb x)  x  cnt wl0 wr0 b0) 0
      h₂ = max (layer (nb h₁) h₁ cnt wl1 wr1 b1) 0
      out =     layer (nb h₂) h₂ cnt wl2 wr2 b2

  where `layer agg h cnt wl wr b` at `(p, q)` is `(∑ₖ (agg (p,k) / max (cnt p) 1) · wl (k,q) + ∑ₖ h (p,k) · wr (k,q)) + b q`.
  The second spelling takes the mean by a product with a column `inv` instead of the quotient by the raised count.
  When `inv p = 1 / max (cnt p) 1` the two spellings are the same function, layer by layer: the divisor is at least
  one, so it is not zero, and off zero the product with the reciprocal is the quotient on every extended real.  The
  operator `nb` is the same on both sides and is never opened.
-/
import proofs.«167675_j67783173865548_2_alg».proof.Proof.LibSageMul

noncomputable section

namespace Cert.Sage

open Idealize.ShloMosaic Idealize.ShloMosaic.ValueIdx

variable {M K : ℕ}

/-- The network whose layers divide the neighbour sums by the raised count. -/
def net (nb : ((⟨2, ![M, K]⟩ : Shape).Idx → EReal) → ((⟨2, ![M, K]⟩ : Shape).Idx → EReal))
    (cnt : (⟨2, ![M, 1]⟩ : Shape).Idx → EReal) (x : (⟨2, ![M, K]⟩ : Shape).Idx → EReal)
    (wl0 wr0 : (⟨2, ![K, K]⟩ : Shape).Idx → EReal) (b0 : (⟨2, ![1, K]⟩ : Shape).Idx → EReal)
    (wl1 wr1 : (⟨2, ![K, K]⟩ : Shape).Idx → EReal) (b1 : (⟨2, ![1, K]⟩ : Shape).Idx → EReal)
    (wl2 wr2 : (⟨2, ![K, K]⟩ : Shape).Idx → EReal) (b2 : (⟨2, ![1, K]⟩ : Shape).Idx → EReal) :
    (⟨2, ![M, K]⟩ : Shape).Idx → EReal :=
  let h1 := layerRelu (nb x) x cnt wl0 wr0 b0
  let h2 := layerRelu (nb h1) h1 cnt wl1 wr1 b1
  layer (nb h2) h2 cnt wl2 wr2 b2

/-- The network whose layers multiply the neighbour sums by a reciprocal column. -/
def netMul (nb : ((⟨2, ![M, K]⟩ : Shape).Idx → EReal) → ((⟨2, ![M, K]⟩ : Shape).Idx → EReal))
    (inv : (⟨2, ![M, 1]⟩ : Shape).Idx → EReal) (x : (⟨2, ![M, K]⟩ : Shape).Idx → EReal)
    (wl0 wr0 : (⟨2, ![K, K]⟩ : Shape).Idx → EReal) (b0 : (⟨2, ![1, K]⟩ : Shape).Idx → EReal)
    (wl1 wr1 : (⟨2, ![K, K]⟩ : Shape).Idx → EReal) (b1 : (⟨2, ![1, K]⟩ : Shape).Idx → EReal)
    (wl2 wr2 : (⟨2, ![K, K]⟩ : Shape).Idx → EReal) (b2 : (⟨2, ![1, K]⟩ : Shape).Idx → EReal) :
    (⟨2, ![M, K]⟩ : Shape).Idx → EReal :=
  let h1 := layerMulRelu (nb x) x inv wl0 wr0 b0
  let h2 := layerMulRelu (nb h1) h1 inv wl1 wr1 b1
  layerMul (nb h2) h2 inv wl2 wr2 b2

/-- With the reciprocal of the raised count as the column, the two networks are one function. -/
theorem netMul_eq_net (nb : ((⟨2, ![M, K]⟩ : Shape).Idx → EReal) → ((⟨2, ![M, K]⟩ : Shape).Idx → EReal))
    (inv cnt : (⟨2, ![M, 1]⟩ : Shape).Idx → EReal) (x : (⟨2, ![M, K]⟩ : Shape).Idx → EReal)
    (wl0 wr0 : (⟨2, ![K, K]⟩ : Shape).Idx → EReal) (b0 : (⟨2, ![1, K]⟩ : Shape).Idx → EReal)
    (wl1 wr1 : (⟨2, ![K, K]⟩ : Shape).Idx → EReal) (b1 : (⟨2, ![1, K]⟩ : Shape).Idx → EReal)
    (wl2 wr2 : (⟨2, ![K, K]⟩ : Shape).Idx → EReal) (b2 : (⟨2, ![1, K]⟩ : Shape).Idx → EReal)
    (hinv : ∀ p : Fin M, inv (ix2 p (0 : Fin 1)) = Ideal.div oneWord (max (cnt (ix2 p (0 : Fin 1))) oneWord)) :
    netMul nb inv x wl0 wr0 b0 wl1 wr1 b1 wl2 wr2 b2 = net nb cnt x wl0 wr0 b0 wl1 wr1 b1 wl2 wr2 b2 := by
  unfold netMul net
  simp only [layerMulRelu_eq_layerRelu _ _ inv cnt _ _ _ hinv, layerMul_eq_layer _ _ inv cnt _ _ _ hinv]

end Cert.Sage

end
-- ==== Proof.KernelValue.lean ====
/-
  The idealized kernel's result array as the three-layer network of the program's arguments.

  Write `s`, `d` for the edge list's rows of sources and targets.  The first kernel finds the first neighbour sums
  `nbr s d x`, the reciprocal-count column `invOf d`, the features `x`, its two weight matrices and its bias row, and
  leaves `h₁`, the layer (with the maximum with zero) of these.  The second stretch of host operations forms
  `nbr s d h₁`; the second kernel leaves `h₂`, the same layer of `nbr s d h₁`, `h₁`, the same column and its own weights; the
  third kernel leaves the layer without activation of `nbr s d h₂`, `h₂`.  Between a kernel and the next stretch nothing
  else changes: a kernel rewrites only its result array, a host stretch only its own results.  So the contents of every
  buffer a kernel reads are followed back, boundary by boundary, to a term of the arguments, and the result array after
  the third kernel is the network with a reciprocal column.
-/
import proofs.«167675_j67783173865548_2_alg».proof.Proof.KernelHost
import proofs.«167675_j67783173865548_2_alg».proof.Proof.KernelRegion0
import proofs.«167675_j67783173865548_2_alg».proof.Proof.KernelRegion1
import proofs.«167675_j67783173865548_2_alg».proof.Proof.KernelRegion2
import proofs.«167675_j67783173865548_2_alg».proof.Proof.SageNet

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-! ## The terms -/

/-- The edges' sources. -/
def kS (c : Dev nD) : (⟨S800000, .i32⟩ : BufTy).Contents (Elt Ideal) := srcOf (m ((c : Thread nD τ).loc main_arg1))
/-- The edges' targets. -/
def kD (c : Dev nD) : (⟨S800000, .i32⟩ : BufTy).Contents (Elt Ideal) := dstOf (m ((c : Thread nD τ).loc main_arg1))
/-- What the first kernel leaves. -/
def kH1 (c : Dev nD) : (⟨S50000x128, .f32⟩ : BufTy).Contents (Elt Ideal) :=
  Sage.layerMulRelu (nbr (kS m c) (kD m c) (m ((c : Thread nD τ).loc main_arg0)) : S50000x128.Idx → EReal) ((m ((c : Thread nD τ).loc main_arg0)) : S50000x128.Idx → EReal)
    (invOf (kD m c) : S50000x1.Idx → EReal) ((m ((c : Thread nD τ).loc main_arg2)) : S128x128.Idx → EReal) ((m ((c : Thread nD τ).loc main_arg4)) : S128x128.Idx → EReal)
    (rowOf (m ((c : Thread nD τ).loc main_arg3)) : S1x128.Idx → EReal)
/-- What the second kernel leaves. -/
def kH2 (c : Dev nD) : (⟨S50000x128, .f32⟩ : BufTy).Contents (Elt Ideal) :=
  Sage.layerMulRelu (nbr (kS m c) (kD m c) (kH1 m c) : S50000x128.Idx → EReal) (kH1 m c : S50000x128.Idx → EReal)
    (invOf (kD m c) : S50000x1.Idx → EReal) ((m ((c : Thread nD τ).loc main_arg5)) : S128x128.Idx → EReal) ((m ((c : Thread nD τ).loc main_arg7)) : S128x128.Idx → EReal)
    (rowOf (m ((c : Thread nD τ).loc main_arg6)) : S1x128.Idx → EReal)
/-- What the third kernel leaves. -/
def kH3 (c : Dev nD) : (⟨S50000x128, .f32⟩ : BufTy).Contents (Elt Ideal) :=
  Sage.layerMul (nbr (kS m c) (kD m c) (kH2 m c) : S50000x128.Idx → EReal) (kH2 m c : S50000x128.Idx → EReal)
    (invOf (kD m c) : S50000x1.Idx → EReal) ((m ((c : Thread nD τ).loc main_arg8)) : S128x128.Idx → EReal) ((m ((c : Thread nD τ).loc main_arg10)) : S128x128.Idx → EReal)
    (rowOf (m ((c : Thread nD τ).loc main_arg9)) : S1x128.Idx → EReal)

/-! ## After the first kernel -/

theorem at2_v1 (c : Dev nD) : W2 m ρ c (Proc.devRef .tc main_v1) = kS m c :=
  (W2_of_ne m ρ c main_v1 (by decide)).trans (at1_v1 m ρ c)
theorem at2_v3 (c : Dev nD) : W2 m ρ c (Proc.devRef .tc main_v3) = kD m c :=
  (W2_of_ne m ρ c main_v3 (by decide)).trans (at1_v3 m ρ c)
/-- The column is an input of the first kernel: it leaves it as it found it. -/
theorem at2_v12 (c : Dev nD) : W2 m ρ c (Proc.devRef .tc main_v12) = invOf (kD m c) :=
  (W2_arr m ρ c 1).trans (((dat0 (V1 m ρ) c).arrAt_in 1 rfl _).trans ((A_eq0 (V1 m ρ) c 1).trans (at1_v12 m ρ c)))
/-- An argument that is not among the first kernel's arrays is as launched. -/
theorem at2_arg (c : Dev nD) (r : Ref sig .tc) (h1 : ∀ w, Pipeline.arrRef spec0 w ≠ r) (h0 : r ∉ wr0) :
    W2 m ρ c (Proc.devRef .tc r) = m ((c : Thread nD τ).loc r) :=
  (W2_of_ne m ρ c r h1).trans (at1_arg m ρ c r h0)
/-- The first kernel's result. -/
theorem at2_v24 (c : Dev nD) : W2 m ρ c (Proc.devRef .tc main_v24) = kH1 m c := by
  refine (W2_arr m ρ c 6).trans ((final0 (V1 m ρ) c).trans ?_)
  unfold whole0 kH1 kS kD
  rw [show V1 m ρ c main_v22 = _ from at1_v22 m ρ c, show V1 m ρ c main_arg0 = _ from at1_arg m ρ c main_arg0 (by decide),
    show V1 m ρ c main_v12 = _ from at1_v12 m ρ c, show V1 m ρ c main_arg2 = _ from at1_arg m ρ c main_arg2 (by decide),
    show V1 m ρ c main_arg4 = _ from at1_arg m ρ c main_arg4 (by decide), show V1 m ρ c main_v23 = _ from at1_v23 m ρ c]

/-! ## When the second kernel starts -/

theorem at3_v1 (c : Dev nD) : W3 m ρ c (Proc.devRef .tc main_v1) = kS m c :=
  (at3_keep m ρ c main_v1 (by decide)).trans (at2_v1 m ρ c)
theorem at3_v3 (c : Dev nD) : W3 m ρ c (Proc.devRef .tc main_v3) = kD m c :=
  (at3_keep m ρ c main_v3 (by decide)).trans (at2_v3 m ρ c)
theorem at3_v12 (c : Dev nD) : W3 m ρ c (Proc.devRef .tc main_v12) = invOf (kD m c) :=
  (at3_keep m ρ c main_v12 (by decide)).trans (at2_v12 m ρ c)
theorem at3_v24 (c : Dev nD) : W3 m ρ c (Proc.devRef .tc main_v24) = kH1 m c :=
  (at3_keep m ρ c main_v24 (by decide)).trans (at2_v24 m ρ c)
theorem at3_arg (c : Dev nD) (r : Ref sig .tc) (h2 : r ∉ wr1) (h1 : ∀ w, Pipeline.arrRef spec0 w ≠ r) (h0 : r ∉ wr0) :
    W3 m ρ c (Proc.devRef .tc r) = m ((c : Thread nD τ).loc r) :=
  (at3_keep m ρ c r h2).trans (at2_arg m ρ c r h1 h0)
theorem at3_v34' (c : Dev nD) : W3 m ρ c (Proc.devRef .tc main_v34) = nbr (kS m c) (kD m c) (kH1 m c) := by
  rw [at3_v34, at2_v1, at2_v3, at2_v24]
theorem at3_v35' (c : Dev nD) : W3 m ρ c (Proc.devRef .tc main_v35) = rowOf (m ((c : Thread nD τ).loc main_arg6)) := by
  rw [at3_v35, at2_arg m ρ c main_arg6 (by decide) (by decide)]

/-! ## After the second kernel -/

theorem at4_v1 (c : Dev nD) : W4 m ρ c (Proc.devRef .tc main_v1) = kS m c :=
  (W4_of_ne m ρ c main_v1 (by decide)).trans (at3_v1 m ρ c)
theorem at4_v3 (c : Dev nD) : W4 m ρ c (Proc.devRef .tc main_v3) = kD m c :=
  (W4_of_ne m ρ c main_v3 (by decide)).trans (at3_v3 m ρ c)
theorem at4_v12 (c : Dev nD) : W4 m ρ c (Proc.devRef .tc main_v12) = invOf (kD m c) :=
  (W4_arr m ρ c 1).trans (((dat1 (V3 m ρ) c).arrAt_in 1 rfl _).trans ((A_eq1 (V3 m ρ) c 1).trans (at3_v12 m ρ c)))
theorem at4_arg (c : Dev nD) (r : Ref sig .tc) (h3 : ∀ w, Pipeline.arrRef spec1 w ≠ r) (h2 : r ∉ wr1)
    (h1 : ∀ w, Pipeline.arrRef spec0 w ≠ r) (h0 : r ∉ wr0) :
    W4 m ρ c (Proc.devRef .tc r) = m ((c : Thread nD τ).loc r) :=
  (W4_of_ne m ρ c r h3).trans (at3_arg m ρ c r h2 h1 h0)
/-- The second kernel's result. -/
theorem at4_v36 (c : Dev nD) : W4 m ρ c (Proc.devRef .tc main_v36) = kH2 m c := by
  refine (W4_arr m ρ c 6).trans ((final1 (V3 m ρ) c).trans ?_)
  unfold whole1 kH2
  rw [show V3 m ρ c main_v34 = _ from at3_v34' m ρ c, show V3 m ρ c main_v24 = _ from at3_v24 m ρ c,
    show V3 m ρ c main_v12 = _ from at3_v12 m ρ c,
    show V3 m ρ c main_arg5 = _ from at3_arg m ρ c main_arg5 (by decide) (by decide) (by decide),
    show V3 m ρ c main_arg7 = _ from at3_arg m ρ c main_arg7 (by decide) (by decide) (by decide),
    show V3 m ρ c main_v35 = _ from at3_v35' m ρ c]

/-! ## When the third kernel starts -/

theorem at5_v12 (c : Dev nD) : W5 m ρ c (Proc.devRef .tc main_v12) = invOf (kD m c) :=
  (at5_keep m ρ c main_v12 (by decide)).trans (at4_v12 m ρ c)
theorem at5_v36 (c : Dev nD) : W5 m ρ c (Proc.devRef .tc main_v36) = kH2 m c :=
  (at5_keep m ρ c main_v36 (by decide)).trans (at4_v36 m ρ c)
theorem at5_arg (c : Dev nD) (r : Ref sig .tc) (h4 : r ∉ wr2) (h3 : ∀ w, Pipeline.arrRef spec1 w ≠ r) (h2 : r ∉ wr1)
    (h1 : ∀ w, Pipeline.arrRef spec0 w ≠ r) (h0 : r ∉ wr0) :
    W5 m ρ c (Proc.devRef .tc r) = m ((c : Thread nD τ).loc r) :=
  (at5_keep m ρ c r h4).trans (at4_arg m ρ c r h3 h2 h1 h0)
theorem at5_v46' (c : Dev nD) : W5 m ρ c (Proc.devRef .tc main_v46) = nbr (kS m c) (kD m c) (kH2 m c) := by
  rw [at5_v46, at4_v1, at4_v3, at4_v36]
theorem at5_v47' (c : Dev nD) : W5 m ρ c (Proc.devRef .tc main_v47) = rowOf (m ((c : Thread nD τ).loc main_arg9)) := by
  rw [at5_v47, at4_arg m ρ c main_arg9 (by decide) (by decide) (by decide) (by decide)]

/-! ## After the third kernel -/

/-- The program's result. -/
theorem at6_v48 (c : Dev nD) : W6 m ρ c (Proc.devRef .tc main_v48) = kH3 m c := by
  refine (W6_arr m ρ c 6).trans ((final2 (V5 m ρ) c).trans ?_)
  unfold whole2 kH3
  rw [show V5 m ρ c main_v46 = _ from at5_v46' m ρ c, show V5 m ρ c main_v36 = _ from at5_v36 m ρ c,
    show V5 m ρ c main_v12 = _ from at5_v12 m ρ c,
    show V5 m ρ c main_arg8 = _ from at5_arg m ρ c main_arg8 (by decide) (by decide) (by decide) (by decide) (by decide),
    show V5 m ρ c main_arg10 = _ from at5_arg m ρ c main_arg10 (by decide) (by decide) (by decide) (by decide) (by decide),
    show V5 m ρ c main_v47 = _ from at5_v47' m ρ c]

/-- The three kernels' results chained are the network with a reciprocal column. -/
theorem kH3_eq (c : Dev nD) : kH3 m c
    = Sage.netMul (fun h : S50000x128.Idx → EReal => (nbr (kS m c) (kD m c) h : S50000x128.Idx → EReal))
        (invOf (kD m c) : S50000x1.Idx → EReal) ((m ((c : Thread nD τ).loc main_arg0)) : S50000x128.Idx → EReal)
        ((m ((c : Thread nD τ).loc main_arg2)) : S128x128.Idx → EReal) ((m ((c : Thread nD τ).loc main_arg4)) : S128x128.Idx → EReal) (rowOf (m ((c : Thread nD τ).loc main_arg3)) : S1x128.Idx → EReal)
        ((m ((c : Thread nD τ).loc main_arg5)) : S128x128.Idx → EReal) ((m ((c : Thread nD τ).loc main_arg7)) : S128x128.Idx → EReal) (rowOf (m ((c : Thread nD τ).loc main_arg6)) : S1x128.Idx → EReal)
        ((m ((c : Thread nD τ).loc main_arg8)) : S128x128.Idx → EReal) ((m ((c : Thread nD τ).loc main_arg10)) : S128x128.Idx → EReal) (rowOf (m ((c : Thread nD τ).loc main_arg9)) : S1x128.Idx → EReal) := rfl

end Cert.KernelIdeal.Hand

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.LibSageStage.lean ====
/-
  The two spellings of one dense stage, each equal to `Sage.layer` of its operands, over the extended reals.

  A row tile computes the stage as: divide the neighbour sums by the count column (first raised to at least `1`, then
  spread along the rows' features), multiply by the left weights, add the tile's own features times the right weights, add
  the bias row spread over the tile's rows; the operands of the two products are first narrowed to a shorter float
  format, which changes nothing here.  The host computes the same from the count as a vector (raised to at least `1`,
  laid out as a column, spread over the features) and the bias as a vector (laid out as a row, spread over the rows).
  At an entry `(p, q)` both are the two sums over the contracted coordinate plus the bias at `q`, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167675_j67783173865548_2_alg».proof.Proof.LibSageLayer
import proofs.«167675_j67783173865548_2_alg».proof.Proof.LibPlainDot
import proofs.«167675_j67783173865548_2_alg».proof.Proof.LibColumns
import proofs.«167675_j67783173865548_2_alg».proof.Proof.LibRegionBlockSpread
import proofs.«167675_j67783173865548_2_alg».proof.Proof.LibDense
import proofs.«167675_j67783173865548_2_alg».proof.Proof.LibColumnOfVector

noncomputable section

namespace Cert.Sage

open Idealize.ShloMosaic Idealize.ShloMosaic.ValueIdx

variable {M K N : ℕ}

/-- The count column raised to at least one and spread along the features reads, at `(p, k)`, `max (cnt (p, 0)) 1`. -/
theorem tileDivisor_apply (cnt : FVec Ideal ⟨2, ![M, 1]⟩ .f32)
    (hc : (⟨2, ![M, 1]⟩ : Shape).ShapeCasts ⟨2, ![M, 1]⟩) (hbc : (⟨2, ![M, 1]⟩ : Shape).Broadcasts ⟨2, ![M, K]⟩)
    (p : Fin M) (k : Fin K) :
    broadcastTo ⟨2, ![M, K]⟩ (maximumf (shapeCast ⟨2, ![M, 1]⟩ cnt hc)
        (broadcast ⟨2, ![M, 1]⟩ (Scalar.ofBits (F := Ideal) .f32 0x3F800000#32))) hbc (ix2 p k)
      = max (cnt (ix2 p (0 : Fin 1))) oneWord := by
  rw [broadcastTo_a1_ab_apply, shapeCast_self]
  rfl

/-- A tile's dense stage as its body computes it is the layer of the tile's arrays. -/
theorem tileStage_eq (d : DotDims ⟨2, ![M, K]⟩ ⟨2, ![K, N]⟩ ⟨2, ![M, N]⟩) (hd : d = DotDims.plain M K N)
    (cnt : FVec Ideal ⟨2, ![M, 1]⟩ .f32) (agg : FVec Ideal ⟨2, ![M, K]⟩ .f32) (h : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (divf (shapeCast ⟨2, ![M, K]⟩ agg ha)
            (broadcastTo ⟨2, ![M, K]⟩ (maximumf (shapeCast ⟨2, ![M, 1]⟩ cnt hc)
              (broadcast ⟨2, ![M, 1]⟩ (Scalar.ofBits (F := Ideal) .f32 0x3F800000#32))) hbc)) t)
          (truncf .bf16 wl t) (constant ⟨2, ![M, N]⟩ .f32 0x00000000#32))
        (matmul d none (shapeCast ⟨2, ![M, K]⟩ h ha) (truncf .bf16 wr t) (constant ⟨2, ![M, N]⟩ .f32 0x00000000#32)))
      (broadcastTo ⟨2, ![M, N]⟩ (shapeCast ⟨2, ![1, N]⟩ b hb) hbr)
    = layer agg h cnt wl wr b := by
  funext j
  obtain ⟨p, q, rfl⟩ : ∃ (p : Fin M) (q : Fin N), j = ix2 p q := ⟨j 0, j 1, eq_ix2 j⟩
  rw [layer_apply, addf_apply, addf_apply]
  show FloatOps.matmul d none _ _ (constant ⟨2, ![M, N]⟩ .f32 0x00000000#32) (ix2 p q)
      + FloatOps.matmul d none _ _ (constant ⟨2, ![M, N]⟩ .f32 0x00000000#32) (ix2 p q) + _ = _
  rw [PlainDot.matmul_zero_apply d hd, PlainDot.matmul_zero_apply d hd, broadcastTo_1b_ab_apply]
  refine congrArg₂ (· + ·) (congrArg₂ (· + ·) (Finset.sum_congr rfl fun k _ => ?_) (Finset.sum_congr rfl fun k _ => ?_)) ?_
  · show Ideal.div (shapeCast ⟨2, ![M, K]⟩ agg ha (ix2 p k)) (broadcastTo ⟨2, ![M, K]⟩ _ hbc (ix2 p k)) * wl (ix2 k q) = _
    rw [tileDivisor_apply, shapeCast_self]
  · show shapeCast ⟨2, ![M, K]⟩ h ha (ix2 p k) * wr (ix2 k q) = _
    rw [shapeCast_self]
  · rw [shapeCast_self]

/-- The count vector raised to at least one, laid out as a column and spread along the features, reads at `(p, k)`
    `max (cnt p) 1`. -/
theorem hostDivisor_apply (cntv : FVec Ideal ⟨1, ![M]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2)) (p : Fin M) (k : Fin K) :
    broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
        (maximumf cntv (broadcastInDim (s := ⟨0, ![]⟩) ⟨1, ![M]⟩ (![] : Fin 0 → Fin 1) h0 (constant (F := Ideal) ⟨0, ![]⟩ .f32 0x3F800000#32)))) (ix2 p k)
      = max (cntv (ix1 p)) oneWord := by
  rw [KeepDims.broadcastInDim_a1_ab_apply, KeepDims.broadcastInDim_a_a1_apply, maximumf_apply,
    broadcastInDim_apply (![] : Fin 0 → Fin 1) h0 _ (ix1 p) ix0 (fun a => a.elim0)]
  rfl

/-- The host's dense stage is the layer of its operands, the count laid out as a column and the bias as a row. -/
theorem hostStage_eq (d : DotDims ⟨2, ![M, K]⟩ ⟨2, ![K, N]⟩ ⟨2, ![M, N]⟩) (hd : d = DotDims.plain M K N)
    (agg x : FVec Ideal ⟨2, ![M, K]⟩ .f32) (cntv : FVec Ideal ⟨1, ![M]⟩ .f32)
    (wl wr : FVec Ideal ⟨2, ![K, N]⟩ .f32) (b : FVec Ideal ⟨1, ![N]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (addf
        (Host.dotGeneral d none (Host.divf agg (broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
          (maximumf cntv (broadcastInDim (s := ⟨0, ![]⟩) ⟨1, ![M]⟩ (![] : Fin 0 → Fin 1) h0 (constant (F := Ideal) ⟨0, ![]⟩ .f32 0x3F800000#32)))))) wl)
        (Host.dotGeneral d none x wr))
      (broadcastInDim (s := ⟨2, ![1, N]⟩) ⟨2, ![M, N]⟩ (![0, 1] : Fin 2 → Fin 2) h4 (broadcastInDim (s := ⟨1, ![N]⟩) ⟨2, ![1, N]⟩ (![1] : Fin 1 → Fin 2) h3 b))
    = layer agg x (shapeCast ⟨2, ![M, 1]⟩ cntv hc) wl wr (shapeCast ⟨2, ![1, N]⟩ b hr) := by
  funext j
  obtain ⟨p, q, rfl⟩ : ∃ (p : Fin M) (q : Fin N), j = ix2 p q := ⟨j 0, j 1, eq_ix2 j⟩
  rw [layer_apply, addf_apply, addf_apply, DenseLayer.inDimRow_apply, shapeCast_a_1a_apply,
    ColumnOfVector.shapeCast_a_a1_apply]
  simp only [Host.dotGeneral]
  rw [PlainDot.dotGeneral_apply d hd, PlainDot.dotGeneral_apply d hd]
  refine congrArg₂ (· + ·) (congrArg₂ (· + ·) (Finset.sum_congr rfl fun k _ => ?_) rfl) rfl
  show Ideal.div (agg (ix2 p k)) (broadcastInDim (s := ⟨2, ![M, 1]⟩) ⟨2, ![M, K]⟩ (![0, 1] : Fin 2 → Fin 2) h2 _ (ix2 p k)) * wl (ix2 k q) = _
  rw [hostDivisor_apply]

end Cert.Sage

end
-- ==== Proof.LibSageBiasFirst.lean ====
/-
  The host's dense stage with the bias added before the second product, over the extended reals.

  A plain reference often writes a mean-aggregation layer as `(mean · Wl + b) + x · Wr`.  Addition of extended reals is
  commutative and associative with no side condition (the sum of `+∞` and `-∞` is one fixed value whatever the
  grouping), so entry by entry this is `(mean · Wl + x · Wr) + b`: the layer that divides the neighbour sums by the
  neighbour count raised to at least one, of the neighbour sums, the features, the count laid out as a column and the
  bias laid out as a row.
-/
import Idealize.ShloMosaic.PureOps.Ideal
import Idealize.ShloMosaic.PureOps.Ideal.Laws
import Idealize.ShloMosaic.Lib.ValueIdx
import proofs.«167675_j67783173865548_2_alg».proof.Proof.LibSageStage

noncomputable section

namespace Cert.Sage

open Idealize.ShloMosaic Idealize.ShloMosaic.ValueIdx

variable {M K N : ℕ}

/-- The host's dense stage with the bias added before the second product is the same layer. -/
theorem hostStageBiasFirst_eq (d : DotDims ⟨2, ![M, K]⟩ ⟨2, ![K, N]⟩ ⟨2, ![M, N]⟩) (hd : d = DotDims.plain M K N)
    (agg x : FVec Ideal ⟨2, ![M, K]⟩ .f32) (cntv : FVec Ideal ⟨1, ![M]⟩ .f32)
    (wl wr : FVec Ideal ⟨2, ![K, N]⟩ .f32) (b : FVec Ideal ⟨1, ![N]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (addf
        (Host.dotGeneral d none (Host.divf agg (broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
          (maximumf cntv (broadcastInDim (s := ⟨0, ![]⟩) ⟨1, ![M]⟩ (![] : Fin 0 → Fin 1) h0 (constant (F := Ideal) ⟨0, ![]⟩ .f32 0x3F800000#32)))))) wl)
        (broadcastInDim (s := ⟨2, ![1, N]⟩) ⟨2, ![M, N]⟩ (![0, 1] : Fin 2 → Fin 2) h4 (broadcastInDim (s := ⟨1, ![N]⟩) ⟨2, ![1, N]⟩ (![1] : Fin 1 → Fin 2) h3 b)))
      (Host.dotGeneral d none x wr)
    = layer agg x (shapeCast ⟨2, ![M, 1]⟩ cntv hc) wl wr (shapeCast ⟨2, ![1, N]⟩ b hr) := by
  rw [← hostStage_eq d hd agg x cntv wl wr b h0 h1 h2 h3 h4 hc hr]
  funext j
  show (_ + _) + _ = (_ + _) + _
  exact add_right_comm _ _ _

end Cert.Sage

end
-- ==== Proof.RefValue.lean ====
/-
  The reference's result as the three-layer network, over the extended reals.

  The reference computes each layer on the host: the neighbour sums (rows gathered at the edges' sources, scatter-added at
  their targets), the neighbour count (ones scatter-added at the targets), the quotient of the sums by the count raised to
  at least one, the product with the neighbours' weights plus the bias, plus the product of the node's own features with
  the other weights; after the first two layers the maximum with zero.  Written `(mean · Wl + b) + x · Wr`, a layer
  equals `(mean · Wl + x · Wr) + b` because addition of extended reals is commutative and associative with no side
  condition.  The neighbour sum of a layer's input is the same function `nbr e` in all three layers (the same gather and
  scatter on the same edge list `e`) and the count `cnt e` is the same vector: neither is opened.
-/
import proofs.«167675_j67783173865548_2_alg».proof.Proof.Gen.ReferenceIdeal.Read
import proofs.«167675_j67783173865548_2_alg».proof.Proof.LibSageBiasFirst
import proofs.«167675_j67783173865548_2_alg».proof.Proof.SageNet

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's matrix product contracts the left operand's columns with the right operand's rows. -/
theorem dot_plain : dot_S50000x128_S128x128_S50000x128_1_0_0_1_n_n = DotDims.plain 50000 128 128 := rfl
theorem cast_col : S50000.ShapeCasts S50000x1 := by decide
theorem cast_row : S128.ShapeCasts S1x128 := by decide

/-- The neighbour sums of node features `h` along the edge list `e`. -/
def nbr (e : (⟨S2x800000, .i32⟩ : BufTy).Contents (Elt Ideal)) (h : (⟨S50000x128, .f32⟩ : BufTy).Contents (Elt Ideal)) :
    (⟨S50000x128, .f32⟩ : BufTy).Contents (Elt Ideal) := val_main_v13 (F := Ideal) h e
/-- The number of edges at each target. -/
def cnt (e : (⟨S2x800000, .i32⟩ : BufTy).Contents (Elt Ideal)) : (⟨S50000, .f32⟩ : BufTy).Contents (Elt Ideal) :=
  val_main_v17 (F := Ideal) e
/-- That count as a column. -/
def cntCol (e : (⟨S2x800000, .i32⟩ : BufTy).Contents (Elt Ideal)) : S50000x1.Idx → EReal :=
  shapeCast S50000x1 (cnt e) cast_col
/-- A bias vector as a row. -/
def row (b : (⟨S128, .f32⟩ : BufTy).Contents (Elt Ideal)) : S1x128.Idx → EReal := shapeCast S1x128 b cast_row

/-- The host's maximum with a spread zero, entry by entry. -/
theorem relu_eq (a : (⟨S50000x128, .f32⟩ : BufTy).Contents (Elt Ideal)) :
    maximumf a (broadcastInDim S50000x128 ![] bcast_S_S50000x128 (constant (F := Ideal) S_ .f32 0x00000000#32))
      = fun i => max (a i) Sage.zeroWord := by
  funext i
  rw [maximumf_apply, broadcastInDim_apply (![] : Fin 0 → Fin 2) bcast_S_S50000x128 _ i ix0 (fun a => a.elim0)]
  rfl

section Stages

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S128x128, .f32⟩ : BufTy).Contents (Elt Ideal))

/-- The first layer before its activation. -/
theorem stage1 : val_main_v28 (F := Ideal) x0 x1 x2 x3 x4
    = Sage.layer (nbr x1 x0) x0 (cntCol x1) x2 x4 (row x3) := by
  unfold val_main_v28 val_main_v26 val_main_v27 val_main_v23 val_main_v25 val_main_v24 val_main_v22 val_main_v21 val_main_v20
    val_main_v19 val_main_v18 val_main_cst_3
  exact Sage.hostStageBiasFirst_eq _ dot_plain (val_main_v13 (F := Ideal) x0 x1) x0 (val_main_v17 (F := Ideal) x1) x2 x4 x3
    bcast_S_S50000 bcast_S50000_S50000x1_0 bcast_S50000x1_S50000x128_0_1 bcast_S128_S1x128_1 bcast_S1x128_S50000x128_0_1
    cast_col cast_row

/-- The first layer. -/
theorem hid1 : val_main_v29 (F := Ideal) x0 x1 x2 x3 x4
    = Sage.layerRelu (nbr x1 x0) x0 (cntCol x1) x2 x4 (row x3) := by
  unfold val_main_v29 val_main_call0_v0 val_main_call0_cst
  rw [stage1, relu_eq]
  rfl

/-- The second layer's neighbour sums and count are the first layer's functions. -/
theorem nbr2 : val_main_v39 (F := Ideal) x0 x1 x2 x3 x4 = nbr x1 (val_main_v29 (F := Ideal) x0 x1 x2 x3 x4) := rfl
theorem cnt2 : val_main_v43 (F := Ideal) x1 = cnt x1 := rfl

/-- The second layer before its activation, of the first layer's result `h`. -/
theorem stage2 : val_main_v54 (F := Ideal) x0 x1 x2 x3 x4 x5 x6 x7
    = Sage.layer (nbr x1 (val_main_v29 (F := Ideal) x0 x1 x2 x3 x4)) (val_main_v29 (F := Ideal) x0 x1 x2 x3 x4) (cntCol x1) x5 x7 (row x6) := by
  unfold val_main_v54 val_main_v52 val_main_v53 val_main_v49 val_main_v51 val_main_v50 val_main_v48 val_main_v47 val_main_v46
    val_main_v45 val_main_v44 val_main_cst_9
  rw [nbr2, cnt2]
  exact Sage.hostStageBiasFirst_eq _ dot_plain (nbr x1 (val_main_v29 (F := Ideal) x0 x1 x2 x3 x4)) (val_main_v29 (F := Ideal) x0 x1 x2 x3 x4)
    (cnt x1) x5 x7 x6
    bcast_S_S50000 bcast_S50000_S50000x1_0 bcast_S50000x1_S50000x128_0_1 bcast_S128_S1x128_1 bcast_S1x128_S50000x128_0_1
    cast_col cast_row

/-- The second layer. -/
theorem hid2 : val_main_v55 (F := Ideal) x0 x1 x2 x3 x4 x5 x6 x7
    = Sage.layerRelu (nbr x1 (val_main_v29 (F := Ideal) x0 x1 x2 x3 x4)) (val_main_v29 (F := Ideal) x0 x1 x2 x3 x4) (cntCol x1) x5 x7 (row x6) := by
  unfold val_main_v55 val_main_call1_v0 val_main_call1_cst
  rw [stage2, relu_eq]
  rfl

/-- The third layer's neighbour sums and count are the first layer's functions. -/
theorem nbr3 : val_main_v65 (F := Ideal) x0 x1 x2 x3 x4 x5 x6 x7 = nbr x1 (val_main_v55 (F := Ideal) x0 x1 x2 x3 x4 x5 x6 x7) := rfl
theorem cnt3 : val_main_v69 (F := Ideal) x1 = cnt x1 := rfl

/-- The third layer (no activation), of the second layer's result. -/
theorem stage3 : val_main_v80 (F := Ideal) x0 x1 x2 x3 x4 x5 x6 x7 x8 x9 x10
    = Sage.layer (nbr x1 (val_main_v55 (F := Ideal) x0 x1 x2 x3 x4 x5 x6 x7)) (val_main_v55 (F := Ideal) x0 x1 x2 x3 x4 x5 x6 x7)
        (cntCol x1) x8 x10 (row x9) := by
  unfold val_main_v80 val_main_v78 val_main_v79 val_main_v75 val_main_v77 val_main_v76 val_main_v74 val_main_v73 val_main_v72
    val_main_v71 val_main_v70 val_main_cst_15
  rw [nbr3, cnt3]
  exact Sage.hostStageBiasFirst_eq _ dot_plain (nbr x1 (val_main_v55 (F := Ideal) x0 x1 x2 x3 x4 x5 x6 x7))
    (val_main_v55 (F := Ideal) x0 x1 x2 x3 x4 x5 x6 x7) (cnt x1) x8 x10 x9
    bcast_S_S50000 bcast_S50000_S50000x1_0 bcast_S50000x1_S50000x128_0_1 bcast_S128_S1x128_1 bcast_S1x128_S50000x128_0_1
    cast_col cast_row

/-- The reference's result is the network that divides by the raised count. -/
theorem result_eq : val_main_v80 (F := Ideal) x0 x1 x2 x3 x4 x5 x6 x7 x8 x9 x10
    = Sage.net (nbr x1) (cntCol x1) x0 x2 x4 (row x3) x5 x7 (row x6) x8 x10 (row x9) := by
  rw [stage3, hid2, hid1]
  rfl

end Stages

/-- The same for the run's own term of the launch memory. -/
theorem res_eq (m : (ℓ : Loc nD τ sig) → Buf (Elt Ideal) ℓ) (c : Dev nD) :
    Cert.ReferenceIdeal.Value.res_main_v80 m c
      = Sage.net (nbr (m ((c.tc : Thread nD τ).loc main_arg1))) (cntCol (m ((c.tc : Thread nD τ).loc main_arg1)))
          (m ((c.tc : Thread nD τ).loc main_arg0))
          (m ((c.tc : Thread nD τ).loc main_arg2)) (m ((c.tc : Thread nD τ).loc main_arg4)) (row (m ((c.tc : Thread nD τ).loc main_arg3)))
          (m ((c.tc : Thread nD τ).loc main_arg5)) (m ((c.tc : Thread nD τ).loc main_arg7)) (row (m ((c.tc : Thread nD τ).loc main_arg6)))
          (m ((c.tc : Thread nD τ).loc main_arg8)) (m ((c.tc : Thread nD τ).loc main_arg10)) (row (m ((c.tc : Thread nD τ).loc main_arg9))) :=
  (val_main_v80_eq m c).trans (result_eq _ _ _ _ _ _ _ _ _ _ _)

end Cert.ReferenceIdeal.RefValue

end
-- ==== Proof.Bridge.lean ====
/-
  The kernel's network and the reference's network are one function of the arguments.

  Both programs cut the edge list into the same two rows, form the neighbour sums by the same gather and the same
  scatter-add, and count the edges at each target by the same scatter-add of ones: `nbr`, `cnt` and the bias row are the
  same terms on both sides.  What differs is how a layer takes the mean.  The kernel multiplies the neighbour sums by the
  column `inv`, whose entry at node `p` is `1 / max (cnt p) 1`; the reference divides them by `max (cnt p) 1`.  The divisor is
  at least one, so it is not zero, and off zero the product with the reciprocal is the quotient on every extended real:
  the two networks agree with no condition on the inputs.
-/
import proofs.«167675_j67783173865548_2_alg».proof.Proof.KernelValue
import proofs.«167675_j67783173865548_2_alg».proof.Proof.RefValue
import proofs.«167675_j67783173865548_2_alg».proof.Proof.LibColumnOfVector
import Idealize.ShloMosaic.Lib.IdealHost

noncomputable section

namespace Cert.Proof.Bridge

open Idealize.ShloMosaic Idealize.ShloMosaic.ValueIdx Idealize.ShloMosaic.TcCoe Idealize.SL.Sem

/-- The neighbour sums are the same function on both sides. -/
theorem nbr_eq (e : (⟨Cert.KernelIdeal.S2x800000, .i32⟩ : BufTy).Contents (Elt Ideal))
    (h : (⟨Cert.KernelIdeal.S50000x128, .f32⟩ : BufTy).Contents (Elt Ideal)) :
    Cert.KernelIdeal.Hand.nbr (Cert.KernelIdeal.Hand.srcOf e) (Cert.KernelIdeal.Hand.dstOf e) h = Cert.ReferenceIdeal.RefValue.nbr e h := rfl

/-- The neighbour count is the same vector on both sides. -/
theorem cnt_eq (e : (⟨Cert.KernelIdeal.S2x800000, .i32⟩ : BufTy).Contents (Elt Ideal)) :
    Cert.KernelIdeal.Hand.cntOf (Cert.KernelIdeal.Hand.dstOf e) = Cert.ReferenceIdeal.RefValue.cnt e := rfl

/-- A bias vector is laid out as the same row on both sides. -/
theorem row_eq (b : (⟨Cert.KernelIdeal.S128, .f32⟩ : BufTy).Contents (Elt Ideal)) : Cert.KernelIdeal.Hand.rowOf b = Cert.ReferenceIdeal.RefValue.row b := rfl

/-- The kernel's column at node `p` is the reciprocal of the reference's count at `p` raised to at least one. -/
theorem inv_eq (e : (⟨Cert.KernelIdeal.S2x800000, .i32⟩ : BufTy).Contents (Elt Ideal)) (p : Fin 50000) :
    (Cert.KernelIdeal.Hand.invOf (Cert.KernelIdeal.Hand.dstOf e) : (⟨2, ![50000, 1]⟩ : Shape).Idx → EReal) (ix2 p (0 : Fin 1))
      = Ideal.div Sage.oneWord (max (Cert.ReferenceIdeal.RefValue.cntCol e (ix2 p (0 : Fin 1))) Sage.oneWord) := by
  unfold Cert.KernelIdeal.Hand.invOf Cert.ReferenceIdeal.RefValue.cntCol
  rw [ColumnOfVector.shapeCast_a_a1_apply, ColumnOfVector.shapeCast_a_a1_apply, hostDivf_apply, maximumf_apply,
    broadcastInDim_scalar_apply, cnt_eq]
  rfl

/-- The kernel's network is the reference's. -/
theorem net_eq (e : (⟨Cert.KernelIdeal.S2x800000, .i32⟩ : BufTy).Contents (Elt Ideal))
    (x : (⟨2, ![50000, 128]⟩ : Shape).Idx → EReal)
    (wl0 wr0 : (⟨2, ![128, 128]⟩ : Shape).Idx → EReal) (b0 : (⟨Cert.KernelIdeal.S128, .f32⟩ : BufTy).Contents (Elt Ideal))
    (wl1 wr1 : (⟨2, ![128, 128]⟩ : Shape).Idx → EReal) (b1 : (⟨Cert.KernelIdeal.S128, .f32⟩ : BufTy).Contents (Elt Ideal))
    (wl2 wr2 : (⟨2, ![128, 128]⟩ : Shape).Idx → EReal) (b2 : (⟨Cert.KernelIdeal.S128, .f32⟩ : BufTy).Contents (Elt Ideal)) :
    Sage.netMul (fun h : (⟨2, ![50000, 128]⟩ : Shape).Idx → EReal =>
          (Cert.KernelIdeal.Hand.nbr (Cert.KernelIdeal.Hand.srcOf e) (Cert.KernelIdeal.Hand.dstOf e) h : (⟨2, ![50000, 128]⟩ : Shape).Idx → EReal))
        (Cert.KernelIdeal.Hand.invOf (Cert.KernelIdeal.Hand.dstOf e) : (⟨2, ![50000, 1]⟩ : Shape).Idx → EReal) x
        wl0 wr0 (Cert.KernelIdeal.Hand.rowOf b0 : (⟨2, ![1, 128]⟩ : Shape).Idx → EReal)
        wl1 wr1 (Cert.KernelIdeal.Hand.rowOf b1 : (⟨2, ![1, 128]⟩ : Shape).Idx → EReal)
        wl2 wr2 (Cert.KernelIdeal.Hand.rowOf b2 : (⟨2, ![1, 128]⟩ : Shape).Idx → EReal)
      = Sage.net (Cert.ReferenceIdeal.RefValue.nbr e) (Cert.ReferenceIdeal.RefValue.cntCol e) x wl0 wr0 (Cert.ReferenceIdeal.RefValue.row b0) wl1 wr1 (Cert.ReferenceIdeal.RefValue.row b1) wl2 wr2 (Cert.ReferenceIdeal.RefValue.row b2) := by
  rw [Sage.netMul_eq_net _ _ (Cert.ReferenceIdeal.RefValue.cntCol e) x wl0 wr0 _ wl1 wr1 _ wl2 wr2 _ (inv_eq e)]
  rfl

end Cert.Proof.Bridge

end
-- ==== Proof.lean ====
/-
  A three-layer graph network with mean aggregation: the tiled kernel program against its plain reference, over the
  extended reals.

  Each layer maps node features `h` (50000 nodes, 128 features) to

      (∑ₖ mean (p,k) · Wl (k,q)  +  ∑ₖ h (p,k) · Wr (k,q))  +  b q,        mean (p,·) = nbr h (p,·) / max (cnt p) 1,

  where `nbr h` adds up the rows of `h` at the sources of the edges into each target node and `cnt p` is the number of
  edges into `p`; the first two layers are followed by a maximum with zero.

  The reference computes every layer on the host and writes it `(mean · Wl + b) + h · Wr`.  The kernel program computes
  `nbr h` on the host, and the rest of a layer in a kernel over ten tiles of 5000 rows, as
  `((nbr h · inv) · Wl + h · Wr) + b` with the column `inv p = 1 / max (cnt p) 1` computed once on the host; the operands of
  its products are narrowed to a shorter float format first, which is the identity on the extended reals.

  Two laws join the two sides, and neither needs a finite input: addition of extended reals is commutative and
  associative, and a product with `1 / c` is the quotient by `c` whenever `c` is not zero — here `c = max (cnt p) 1 ≥ 1`.
  The gather and the scatter-add behind `nbr` and `cnt` are the same operations on the same edge list in both programs
  and are never opened.

  The kernel's side: a row of a layer depends on the same row of its inputs only, so the ten tiles a kernel writes are the
  ten row blocks of the layer of the whole arrays it finds; following each kernel's inputs back through the host
  operations gives the result array as the three-layer network of the program's arguments.  The reference's side: its run
  ends with the result at the composed term of its host operations, which folds layer by layer into the same network.
  The three frame claims are the programs' runs with the result forgotten; the idealization rewrote nothing.
-/
import proofs.«167675_j67783173865548_2_alg».proof.Defs
import proofs.«167675_j67783173865548_2_alg».proof.Proof.Gen.Kernel
import proofs.«167675_j67783173865548_2_alg».proof.Proof.Gen.KernelIdeal
import proofs.«167675_j67783173865548_2_alg».proof.Proof.Gen.ReferenceIdeal
import proofs.«167675_j67783173865548_2_alg».proof.Proof.Gen.Pre_finite_inputs
import proofs.«167675_j67783173865548_2_alg».proof.Proof.Gen.ReferenceIdeal.Run
import proofs.«167675_j67783173865548_2_alg».proof.Proof.Gen.ReferenceIdeal.Read
import proofs.«167675_j67783173865548_2_alg».proof.Proof.KernelFrameP
import proofs.«167675_j67783173865548_2_alg».proof.Proof.KernelIdealFrameP
import proofs.«167675_j67783173865548_2_alg».proof.Proof.KernelRun
import proofs.«167675_j67783173865548_2_alg».proof.Proof.Bridge
import Idealize.ShloMosaic.Adequacy
import Idealize.ShloMosaic.Init

noncomputable section

namespace Cert.Proof

open Idealize.ShloMosaic Idealize.SL.Sem

/-- The kernel program as printed runs to the end without a fault and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the three-layer network of the arguments in their
    result arrays: the kernel's with the reciprocal column, the reference's with the quotient, one function. -/
theorem algebraic : Cert.algebraic_KernelIdeal_ReferenceIdeal := by
  intro m ρ m' ρ' _ hagree
  refine ⟨fun c => Cert.KernelIdeal.Hand.kH3 m c, ?_, ?_⟩
  · exact (θ_run Cert.KernelIdeal.defs _ _).mono
      (fun r h c => ⟨(h c).1.trans (Cert.KernelIdeal.Hand.at6_v48 m ρ c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.res_eq, e0, e1, e2, e3, e4, e5, e6, e7, e8, e9, e10]
    exact ((Cert.KernelIdeal.Hand.kH3_eq m c).trans (Cert.Proof.Bridge.net_eq _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
